-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  IdealRules.named_const.Statement Cert.KernelIdeal.κ "inv_sqrt_h" .f32 0x3D13CD3A#32 ((524288 / 14529495 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x768 : Shape := ⟨3, ![8, 256, 768]⟩
abbrev S8x32x768 : Shape := ⟨3, ![8, 32, 768]⟩
abbrev S8x128x768 : Shape := ⟨3, ![8, 128, 768]⟩
abbrev S768x768 : Shape := ⟨2, ![768, 768]⟩
abbrev S768 : Shape := ⟨1, ![768]⟩
abbrev S1536x768 : Shape := ⟨2, ![1536, 768]⟩
abbrev S1536 : Shape := ⟨1, ![1536]⟩
abbrev S768x1536 : Shape := ⟨2, ![768, 1536]⟩
abbrev S_ : Shape := ⟨0, ![]⟩

class Facts : Prop where
  bcast_S_S8x256x768 : S_.BroadcastsInDim S8x256x768 (![] : Fin 0 → Fin S8x256x768.rank)
  reducesTo_S8x256x768_S_d0_1_2 : S8x256x768.ReducesTo [0, 1, 2] S_
  h_S_ : 0 < S_.numel
  bcast_S_S8x32x768 : S_.BroadcastsInDim S8x32x768 (![] : Fin 0 → Fin S8x32x768.rank)
  reducesTo_S8x32x768_S_d0_1_2 : S8x32x768.ReducesTo [0, 1, 2] S_
  bcast_S_S8x128x768 : S_.BroadcastsInDim S8x128x768 (![] : Fin 0 → Fin S8x128x768.rank)
  reducesTo_S8x128x768_S_d0_1_2 : S8x128x768.ReducesTo [0, 1, 2] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_
  bcast_S_S1536x768 : S_.BroadcastsInDim S1536x768 (![] : Fin 0 → Fin S1536x768.rank)
  reducesTo_S1536x768_S_d0_1 : S1536x768.ReducesTo [0, 1] S_
  bcast_S_S1536 : S_.BroadcastsInDim S1536 (![] : Fin 0 → Fin S1536.rank)
  reducesTo_S1536_S_d0 : S1536.ReducesTo [0] S_
  bcast_S_S768x1536 : S_.BroadcastsInDim S768x1536 (![] : Fin 0 → Fin S768x1536.rank)
  reducesTo_S768x1536_S_d0_1 : S768x1536.ReducesTo [0, 1] S_

variable [Facts]

def fn_part3 {F : FTy → Type} [FloatOps F] (main_v48 : IVec S_ 1) (main_v49 : FVec F S768 .f32) (main_v50 : FVec F S768 .f32) : IVec S_ 1 :=
  let main_v51 : IVec S768 1 := cmpf .olt main_v49 main_v50
  let main_c_19 : IVec S_ 1 := constantI S_ 1 1#1
  let main_v52 : IVec S_ 1 := (fun x v => Host.reduce IntOp.andi x v reducesTo_S768_S_d0 h_S_) main_v51 main_c_19
  let main_v53 : IVec S_ 1 := andi main_v48 main_v52
  main_v53

def fn_part2 {F : FTy → Type} [FloatOps F] (main_arg7 : FVec F S768x1536 .f32) (main_arg8 : FVec F S768 .f32) (main_arg9 : FVec F S768x1536 .f32) (main_arg10 : FVec F S768 .f32) (main_v33 : IVec S_ 1) : IVec S_ 1 :=
  let main_v34 : FVec F S768x1536 .f32 := Host.absf main_arg7
  let main_cst_12 : FVec F S_ .f32 := constant S_ .f32 0x7F800000#32
  let main_v35 : FVec F S768x1536 .f32 := broadcastInDim S768x1536 ![] bcast_S_S768x1536 main_cst_12
  let main_v36 : IVec S768x1536 1 := cmpf .olt main_v34 main_v35
  let main_c_13 : IVec S_ 1 := constantI S_ 1 1#1
  let main_v37 : IVec S_ 1 := (fun x v => Host.reduce IntOp.andi x v reducesTo_S768x1536_S_d0_1 h_S_) main_v36 main_c_13
  let main_v38 : IVec S_ 1 := andi main_v33 main_v37
  let main_v39 : FVec F S768 .f32 := Host.absf main_arg8
  let main_cst_14 : FVec F S_ .f32 := constant S_ .f32 0x7F800000#32
  let main_v40 : FVec F S768 .f32 := broadcastInDim S768 ![] bcast_S_S768 main_cst_14
  let main_v41 : IVec S768 1 := cmpf .olt main_v39 main_v40
  let main_c_15 : IVec S_ 1 := constantI S_ 1 1#1
  let main_v42 : IVec S_ 1 := (fun x v => Host.reduce IntOp.andi x v reducesTo_S768_S_d0 h_S_) main_v41 main_c_15
  let main_v43 : IVec S_ 1 := andi main_v38 main_v42
  let main_v44 : FVec F S768x1536 .f32 := Host.absf main_arg9
  let main_cst_16 : FVec F S_ .f32 := constant S_ .f32 0x7F800000#32
  let main_v45 : FVec F S768x1536 .f32 := broadcastInDim S768x1536 ![] bcast_S_S768x1536 main_cst_16
  let main_v46 : IVec S768x1536 1 := cmpf .olt main_v44 main_v45
  let main_c_17 : IVec S_ 1 := constantI S_ 1 1#1
  let main_v47 : IVec S_ 1 := (fun x v => Host.reduce IntOp.andi x v reducesTo_S768x1536_S_d0_1 h_S_) main_v46 main_c_17
  let main_v48 : IVec S_ 1 := andi main_v43 main_v47
  let main_v49 : FVec F S768 .f32 := Host.absf main_arg10
  let main_cst_18 : FVec F S_ .f32 := constant S_ .f32 0x7F800000#32
  let main_v50 : FVec F S768 .f32 := broadcastInDim S768 ![] bcast_S_S768 main_cst_18
  fn_part3 (F := F) main_v48 main_v49 main_v50

def fn_part1 {F : FTy → Type} [FloatOps F] (main_arg4 : FVec F S768 .f32) (main_arg5 : FVec F S1536x768 .f32) (main_arg6 : FVec F S1536 .f32) (main_arg7 : FVec F S768x1536 .f32) (main_arg8 : FVec F S768 .f32) (main_arg9 : FVec F S768x1536 .f32) (main_arg10 : FVec F S768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S1536x768 .f32 := Host.absf main_arg5
  let main_cst_8 : FVec F S_ .f32 := constant S_ .f32 0x7F800000#32
  let main_v25 : FVec F S1536x768 .f32 := broadcastInDim S1536x768 ![] bcast_S_S1536x768 main_cst_8
  let main_v26 : IVec S1536x768 1 := cmpf .olt main_v24 main_v25
  let main_c_9 : IVec S_ 1 := constantI S_ 1 1#1
  let main_v27 : IVec S_ 1 := (fun x v => Host.reduce IntOp.andi x v reducesTo_S1536x768_S_d0_1 h_S_) main_v26 main_c_9
  let main_v28 : IVec S_ 1 := andi main_v23 main_v27
  let main_v29 : FVec F S1536 .f32 := Host.absf main_arg6
  let main_cst_10 : FVec F S_ .f32 := constant S_ .f32 0x7F800000#32
  let main_v30 : FVec F S1536 .f32 := broadcastInDim S1536 ![] bcast_S_S1536 main_cst_10
  let main_v31 : IVec S1536 1 := cmpf .olt main_v29 main_v30
  let main_c_11 : IVec S_ 1 := constantI S_ 1 1#1
  let main_v32 : IVec S_ 1 := (fun x v => Host.reduce IntOp.andi x v reducesTo_S1536_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8x256x768 .f32) (main_arg1 : FVec F S8x32x768 .f32) (main_arg2 : FVec F S8x128x768 .f32) (main_arg3 : FVec F S768x768 .f32) (main_arg4 : FVec F S768 .f32) (main_arg5 : FVec F S1536x768 .f32) (main_arg6 : FVec F S1536 .f32) (main_arg7 : FVec F S768x1536 .f32) (main_arg8 : FVec F S768 .f32) (main_arg9 : FVec F S768x1536 .f32) (main_arg10 : FVec F S768 .f32) : IVec S_ 1 :=
  let main_v0 : FVec F S8x256x768 .f32 := Host.absf main_arg0
  let main_cst : FVec F S_ .f32 := constant S_ .f32 0x7F800000#32
  let main_v1 : FVec F S8x256x768 .f32 := broadcastInDim S8x256x768 ![] bcast_S_S8x256x768 main_cst
  let main_v2 : IVec S8x256x768 1 := cmpf .olt main_v0 main_v1
  let main_c : IVec S_ 1 := constantI S_ 1 1#1
  let main_v3 : IVec S_ 1 := (fun x v => Host.reduce IntOp.andi x v reducesTo_S8x256x768_S_d0_1_2 h_S_) main_v2 main_c
  let main_v4 : FVec F S8x32x768 .f32 := Host.absf main_arg1
  let main_cst_0 : FVec F S_ .f32 := constant S_ .f32 0x7F800000#32
  let main_v5 : FVec F S8x32x768 .f32 := broadcastInDim S8x32x768 ![] bcast_S_S8x32x768 main_cst_0
  let main_v6 : IVec S8x32x768 1 := cmpf .olt main_v4 main_v5
  let main_c_1 : IVec S_ 1 := constantI S_ 1 1#1
  let main_v7 : IVec S_ 1 := (fun x v => Host.reduce IntOp.andi x v reducesTo_S8x32x768_S_d0_1_2 h_S_) main_v6 main_c_1
  let main_v8 : IVec S_ 1 := andi main_v3 main_v7
  let main_v9 : FVec F S8x128x768 .f32 := Host.absf main_arg2
  let main_cst_2 : FVec F S_ .f32 := constant S_ .f32 0x7F800000#32
  let main_v10 : FVec F S8x128x768 .f32 := broadcastInDim S8x128x768 ![] bcast_S_S8x128x768 main_cst_2
  let main_v11 : IVec S8x128x768 1 := cmpf .olt main_v9 main_v10
  let main_c_3 : IVec S_ 1 := constantI S_ 1 1#1
  let main_v12 : IVec S_ 1 := (fun x v => Host.reduce IntOp.andi x v reducesTo_S8x128x768_S_d0_1_2 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg4 main_arg5 main_arg6 main_arg7 main_arg8 main_arg9 main_arg10 main_v13 main_v16
-- ==== Kernel.lean ====
abbrev S8x256x768 : Shape := ⟨3, ![8, 256, 768]⟩
abbrev S8x32x768 : Shape := ⟨3, ![8, 32, 768]⟩
abbrev S8x128x768 : Shape := ⟨3, ![8, 128, 768]⟩
abbrev S768x768 : Shape := ⟨2, ![768, 768]⟩
abbrev S768 : Shape := ⟨1, ![768]⟩
abbrev S1536x768 : Shape := ⟨2, ![1536, 768]⟩
abbrev S1536 : Shape := ⟨1, ![1536]⟩
abbrev S768x1536 : Shape := ⟨2, ![768, 1536]⟩
abbrev S1x256x768 : Shape := ⟨3, ![1, 256, 768]⟩
abbrev S1x128x768 : Shape := ⟨3, ![1, 128, 768]⟩
abbrev S256x768 : Shape := ⟨2, ![256, 768]⟩
abbrev S128x768 : Shape := ⟨2, ![128, 768]⟩
abbrev S1x768 : Shape := ⟨2, ![1, 768]⟩
abbrev S768x128 : Shape := ⟨2, ![768, 128]⟩
abbrev S256x128 : Shape := ⟨2, ![256, 128]⟩
abbrev S256 : Shape := ⟨1, ![256]⟩
abbrev S256x1 : Shape := ⟨2, ![256, 1]⟩
abbrev S8x256x32x768 : Shape := ⟨4, ![8, 256, 32, 768]⟩
abbrev S1x64x768 : Shape := ⟨3, ![1, 64, 768]⟩
abbrev S1x32x768 : Shape := ⟨3, ![1, 32, 768]⟩
abbrev S1x64x32x768 : Shape := ⟨4, ![1, 64, 32, 768]⟩
abbrev S64x768 : Shape := ⟨2, ![64, 768]⟩
abbrev S32x768 : Shape := ⟨2, ![32, 768]⟩
abbrev S64x1x768 : Shape := ⟨3, ![64, 1, 768]⟩
abbrev S64x32x768 : Shape := ⟨3, ![64, 32, 768]⟩
abbrev S1x1x768 : Shape := ⟨3, ![1, 1, 768]⟩

abbrev nBuf : Space → Nat
  | .hbm => 35
  | .vmem => 24
  | .smem => 0
  | _ => 0

abbrev bufTy : (tb : Table) → Fin (tcTables nBuf tb) → BufTy
  | .hbm, ⟨0, _⟩ => ⟨S8x256x768, .f32⟩
  | .hbm, ⟨1, _⟩ => ⟨S8x32x768, .f32⟩
  | .hbm, ⟨2, _⟩ => ⟨S8x128x768, .f32⟩
  | .hbm, ⟨3, _⟩ => ⟨S768x768, .f32⟩
  | .hbm, ⟨4, _⟩ => ⟨S768, .f32⟩
  | .hbm, ⟨5, _⟩ => ⟨S1536x768, .f32⟩
  | .hbm, ⟨6, _⟩ => ⟨S1536, .f32⟩
  | .hbm, ⟨7, _⟩ => ⟨S768x1536, .f32⟩
  | .hbm, ⟨8, _⟩ => ⟨S768, .f32⟩
  | .hbm, ⟨9, _⟩ => ⟨S768x1536, .f32⟩
  | .hbm, ⟨10, _⟩ => ⟨S768, .f32⟩
  | .hbm, ⟨11, _⟩ => ⟨S768x768, .f32⟩
  | .hbm, ⟨12, _⟩ => ⟨S768x768, .f32⟩
  | .hbm, ⟨13, _⟩ => ⟨S768, .f32⟩
  | .hbm, ⟨14, _⟩ => ⟨S768, .f32⟩
  | .hbm, ⟨15, _⟩ => ⟨S768x768, .f32⟩
  | .hbm, ⟨16, _⟩ => ⟨S768x768, .f32⟩
  | .hbm, ⟨17, _⟩ => ⟨S768x768, .f32⟩
  | .hbm, ⟨18, _⟩ => ⟨S768x768, .f32⟩
  | .hbm, ⟨19, _⟩ => ⟨S768x768, .f32⟩
  | .hbm, ⟨20, _⟩ => ⟨S768x768, .bf16⟩
  | .hbm, ⟨21, _⟩ => ⟨S768x768, .f32⟩
  | .hbm, ⟨22, _⟩ => ⟨S768x768, .bf16⟩
  | .hbm, ⟨23, _⟩ => ⟨S768x768, .f32⟩
  | .hbm, ⟨24, _⟩ => ⟨S768x768, .bf16⟩
  | .hbm, ⟨25, _⟩ => ⟨S768x768, .f32⟩
  | .hbm, ⟨26, _⟩ => ⟨S768x768, .bf16⟩
  | .hbm, ⟨27, _⟩ => ⟨S768x768, .f32⟩
  | .hbm, ⟨28, _⟩ => ⟨S768x768, .bf16⟩
  | .hbm, ⟨29, _⟩ => ⟨S768x768, .f32⟩
  | .hbm, ⟨30, _⟩ => ⟨S768x768, .bf16⟩
  | .hbm, ⟨31, _⟩ => ⟨S768x768, .f32⟩
  | .hbm, ⟨32, _⟩ => ⟨S768x768, .bf16⟩
  | .hbm, ⟨33, _⟩ => ⟨S8x256x768, .f32⟩
  | .hbm, ⟨34, _⟩ => ⟨S8x256x32x768, .f32⟩
  | .local _ .vmem, ⟨0, _⟩ => ⟨S1x256x768, .f32⟩
  | .local _ .vmem, ⟨1, _⟩ => ⟨S1x256x768, .f32⟩
  | .local _ .vmem, ⟨2, _⟩ => ⟨S1x128x768, .f32⟩
  | .local _ .vmem, ⟨3, _⟩ => ⟨S1x128x768, .f32⟩
  | .local _ .vmem, ⟨4, _⟩ => ⟨S768x768, .bf16⟩
  | .local _ .vmem, ⟨5, _⟩ => ⟨S768, .f32⟩
  | .local _ .vmem, ⟨6, _⟩ => ⟨S768x768, .bf16⟩
  | .local _ .vmem, ⟨7, _⟩ => ⟨S768, .f32⟩
  | .local _ .vmem, ⟨8, _⟩ => ⟨S768x768, .bf16⟩
  | .local _ .vmem, ⟨9, _⟩ => ⟨S768, .f32⟩
  | .local _ .vmem, ⟨10, _⟩ => ⟨S768x768, .bf16⟩
  | .local _ .vmem, ⟨11, _⟩ => ⟨S768x768, .bf16⟩
  | .local _ .vmem, ⟨12, _⟩ => ⟨S768, .f32⟩
  | .local _ .vmem, ⟨13, _⟩ => ⟨S1x256x768, .f32⟩
  | .local _ .vmem, ⟨14, _⟩ => ⟨S1x256x768, .f32⟩
  | .local _ .vmem, ⟨15, _⟩ => ⟨S1x64x768, .f32⟩
  | .local _ .vmem, ⟨16, _⟩ => ⟨S1x64x768, .f32⟩
  | .local _ .vmem, ⟨17, _⟩ => ⟨S1x32x768, .f32⟩
  | .local _ .vmem, ⟨18, _⟩ => ⟨S1x32x768, .f32⟩
  | .local _ .vmem, ⟨19, _⟩ => ⟨S768x768, .bf16⟩
  | .local _ .vmem, ⟨20, _⟩ => ⟨S768x768, .bf16⟩
  | .local _ .vmem, ⟨21, _⟩ => ⟨S768, .f32⟩
  | .local _ .vmem, ⟨22, _⟩ => ⟨S1x64x32x768, .f32⟩
  | .local _ .vmem, ⟨23, _⟩ => ⟨S1x64x32x768, .f32⟩
  | _, _ => ⟨S8x256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem3_0 : DmaSem sig := 20
abbrev cc1_sem4_0 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S768x768 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S768x768 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x256x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x64x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x32x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S768x768 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S768x768 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S768 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x64x32x768 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  slices_S1536x768_S768x768_0_0 : S1536x768.Slices ![0, 0] S768x768
  slices_S1536x768_S768x768_768_0 : S1536x768.Slices ![768, 0] S768x768
  slices_S1536_S768_0 : S1536.Slices ![0] S768
  slices_S1536_S768_768 : S1536.Slices ![768] S768
  slices_S768x1536_S768x768_0_0 : S768x1536.Slices ![0, 0] S768x768
  slices_S768x1536_S768x768_0_768 : S768x1536.Slices ![0, 768] S768x768
  transposes_S768x768_S768x768_1_0 : S768x768.Transposes [1, 0] S768x768
  bitsLt_bf16_f32 : FTy.bits .bf16 < FTy.bits .f32
  inb_S1x256x768_S1x256x768_0_0_0 : ∀ a, (![0, 0, 0] : Fin 3 → Nat) a + S1x256x768.size a ≤ S1x256x768.size a
  h_S1x256x768 : 0 < S1x256x768.numel
  shapeCasts_S1x256x768_S256x768 : S1x256x768.ShapeCasts S256x768
  inb_S1x128x768_S1x128x768_0_0_0 : ∀ a, (![0, 0, 0] : Fin 3 → Nat) a + S1x128x768.size a ≤ S1x128x768.size a
  h_S1x128x768 : 0 < S1x128x768.numel
  shapeCasts_S1x128x768_S128x768 : S1x128x768.ShapeCasts S128x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S768_S768_0 : ∀ a, (![0] : Fin 1 → Nat) a + S768.size a ≤ S768.size a
  h_S768 : 0 < S768.numel
  shapeCasts_S768_S1x768 : S768.ShapeCasts S1x768
  broadcasts_S1x768_S256x768 : S1x768.Broadcasts S256x768
  shapeCasts_S768_S768 : S768.ShapeCasts S768
  broadcasts_S1x768_S128x768 : S1x768.Broadcasts S128x768
  transposes_S128x768_p1_0_S768x128 : S128x768.Transposes [1, 0] S768x128
  reduces_S256x128_S256 : S256x128.Reduces [1] S256
  shapeCasts_S256_S256x1 : S256.ShapeCasts S256x1
  broadcasts_S256x1_S256x128 : S256x1.Broadcasts S256x128
  shapeCasts_S256x768_S1x256x768 : S256x768.ShapeCasts S1x256x768
  inb_S1x64x768_S1x64x768_0_0_0 : ∀ a, (![0, 0, 0] : Fin 3 → Nat) a + S1x64x768.size a ≤ S1x64x768.size a
  h_S1x64x768 : 0 < S1x64x768.numel
  shapeCasts_S1x64x768_S64x768 : S1x64x768.ShapeCasts S64x768
  inb_S1x32x768_S1x32x768_0_0_0 : ∀ a, (![0, 0, 0] : Fin 3 → Nat) a + S1x32x768.size a ≤ S1x32x768.size a
  h_S1x32x768 : 0 < S1x32x768.numel
  shapeCasts_S1x32x768_S32x768 : S1x32x768.ShapeCasts S32x768
  shapeCasts_S64x768_S64x1x768 : S64x768.ShapeCasts S64x1x768
  shapeCasts_S32x768_S1x32x768 : S32x768.ShapeCasts S1x32x768
  broadcasts_S64x1x768_S64x32x768 : S64x1x768.Broadcasts S64x32x768
  broadcasts_S1x32x768_S64x32x768 : S1x32x768.Broadcasts S64x32x768
  shapeCasts_S768_S1x1x768 : S768.ShapeCasts S1x1x768
  broadcasts_S1x1x768_S64x32x768 : S1x1x768.Broadcasts S64x32x768
  inb_S1x64x32x768_S1x64x32x768_0_0_0_0 : ∀ a, (![0, 0, 0, 0] : Fin 4 → Nat) a + S1x64x32x768.size a ≤ S1x64x32x768.size a
  h_S1x64x32x768 : 0 < S1x64x32x768.numel
  shapeCasts_S1x64x32x768_S64x32x768 : S1x64x32x768.ShapeCasts S64x32x768
  shapeCasts_S64x32x768_S1x64x32x768 : S64x32x768.ShapeCasts S1x64x32x768
  dot_S256x768_S768x768_S256x768_1_0_0_1_n_n_wf : DotDims.WF S256x768 S768x768 S256x768 [1] [0] [0] [1] [] []
  dot_S128x768_S768x768_S128x768_1_0_0_1_n_n_wf : DotDims.WF S128x768 S768x768 S128x768 [1] [0] [0] [1] [] []
  dot_S256x768_S768x128_S256x128_1_0_0_1_n_n_wf : DotDims.WF S256x768 S768x128 S256x128 [1] [0] [0] [1] [] []
  dot_S256x128_S128x768_S256x768_1_0_0_1_n_n_wf : DotDims.WF S256x128 S128x768 S256x768 [1] [0] [0] [1] [] []
  dot_S64x768_S768x768_S64x768_1_0_0_1_n_n_wf : DotDims.WF S64x768 S768x768 S64x768 [1] [0] [0] [1] [] []
  dot_S32x768_S768x768_S32x768_1_0_0_1_n_n_wf : DotDims.WF S32x768 S768x768 S32x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x768.size a ≤ S8x256x768.size a
  hwx0_0 : ∀ i : grid0.Coords, EltTy.bits .f32 = 32 ∨ (Rect.block (s := S8x256x768) S1x256x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x768.size a ≤ S8x128x768.size a
  hwx0_1 : ∀ i : grid0.Coords, EltTy.bits .f32 = 32 ∨ (Rect.block (s := S8x128x768) S1x128x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x768.size a ≤ S768x768.size a
  hwx0_2 : ∀ i : grid0.Coords, EltTy.bits .bf16 = 32 ∨ (Rect.block (s := S768x768) S768x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768.size a ≤ S768.size a
  hwx0_3 : ∀ i : grid0.Coords, EltTy.bits .f32 = 32 ∨ (Rect.block (s := S768) S768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768x768.size a ≤ S768x768.size a
  hwx0_4 : ∀ i : grid0.Coords, EltTy.bits .bf16 = 32 ∨ (Rect.block (s := S768x768) S768x768.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S768.size a ≤ S768.size a
  hwx0_5 : ∀ i : grid0.Coords, EltTy.bits .f32 = 32 ∨ (Rect.block (s := S768) S768.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S768x768.size a ≤ S768x768.size a
  hwx0_6 : ∀ i : grid0.Coords, EltTy.bits .bf16 = 32 ∨ (Rect.block (s := S768x768) S768x768.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S768.size a ≤ S768.size a
  hwx0_7 : ∀ i : grid0.Coords, EltTy.bits .f32 = 32 ∨ (Rect.block (s := S768) S768.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S768x768.size a ≤ S768x768.size a
  hwx0_8 : ∀ i : grid0.Coords, EltTy.bits .bf16 = 32 ∨ (Rect.block (s := S768x768) S768x768.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S768x768.size a ≤ S768x768.size a
  hwx0_9 : ∀ i : grid0.Coords, EltTy.bits .bf16 = 32 ∨ (Rect.block (s := S768x768) S768x768.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S768.size a ≤ S768.size a
  hwx0_10 : ∀ i : grid0.Coords, EltTy.bits .f32 = 32 ∨ (Rect.block (s := S768) S768.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x256x768.size a ≤ S8x256x768.size a
  hwx0_11 : ∀ i : grid0.Coords, EltTy.bits .f32 = 32 ∨ (Rect.block (s := S8x256x768) S1x256x768.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x768.size a ≤ S8x256x768.size a
  hwx1_0 : ∀ i : grid1.Coords, EltTy.bits .f32 = 32 ∨ (Rect.block (s := S8x256x768) S1x64x768.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x32x768.size a ≤ S8x32x768.size a
  hwx1_1 : ∀ i : grid1.Coords, EltTy.bits .f32 = 32 ∨ (Rect.block (s := S8x32x768) S1x32x768.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S768x768.size a ≤ S768x768.size a
  hwx1_2 : ∀ i : grid1.Coords, EltTy.bits .bf16 = 32 ∨ (Rect.block (s := S768x768) S768x768.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S768x768.size a ≤ S768x768.size a
  hwx1_3 : ∀ i : grid1.Coords, EltTy.bits .bf16 = 32 ∨ (Rect.block (s := S768x768) S768x768.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S768.size a ≤ S768.size a
  hwx1_4 : ∀ i : grid1.Coords, EltTy.bits .f32 = 32 ∨ (Rect.block (s := S768) S768.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x64x32x768.size a ≤ S8x256x32x768.size a
  hwx1_5 : ∀ i : grid1.Coords, EltTy.bits .f32 = 32 ∨ (Rect.block (s := S8x256x32x768) S1x64x32x768.size (cc1_transform_5 i) (hinb1_5 i)).WholeWords (EltTy.packing .f32)

variable [Facts₀]

def dot_S256x768_S768x768_S256x768_1_0_0_1_n_n : DotDims S256x768 S768x768 S256x768 where
  lhsContracting := [1]
  rhsContracting := [0]
  lhsNonContracting := [0]
  rhsNonContracting := [1]
  lhsBatch := []
  rhsBatch := []
  wf := dot_S256x768_S768x768_S256x768_1_0_0_1_n_n_wf
def dot_S128x768_S768x768_S128x768_1_0_0_1_n_n : DotDims S128x768 S768x768 S128x768 where
  lhsContracting := [1]
  rhsContracting := [0]
  lhsNonContracting := [0]
  rhsNonContracting := [1]
  lhsBatch := []
  rhsBatch := []
  wf := dot_S128x768_S768x768_S128x768_1_0_0_1_n_n_wf
def dot_S256x768_S768x128_S256x128_1_0_0_1_n_n : DotDims S256x768 S768x128 S256x128 where
  lhsContracting := [1]
  rhsContracting := [0]
  lhsNonContracting := [0]
  rhsNonContracting := [1]
  lhsBatch := []
  rhsBatch := []
  wf := dot_S256x768_S768x128_S256x128_1_0_0_1_n_n_wf
def dot_S256x128_S128x768_S256x768_1_0_0_1_n_n : DotDims S256x128 S128x768 S256x768 where
  lhsContracting := [1]
  rhsContracting := [0]
  lhsNonContracting := [0]
  rhsNonContracting := [1]
  lhsBatch := []
  rhsBatch := []
  wf := dot_S256x128_S128x768_S256x768_1_0_0_1_n_n_wf
def dot_S64x768_S768x768_S64x768_1_0_0_1_n_n : DotDims S64x768 S768x768 S64x768 where
  lhsContracting := [1]
  rhsContracting := [0]
  lhsNonContracting := [0]
  rhsNonContracting := [1]
  lhsBatch := []
  rhsBatch := []
  wf := dot_S64x768_S768x768_S64x768_1_0_0_1_n_n_wf
def dot_S32x768_S768x768_S32x768_1_0_0_1_n_n : DotDims S32x768 S768x768 S32x768 where
  lhsContracting := [1]
  rhsContracting := [0]
  lhsNonContracting := [0]
  rhsNonContracting := [1]
  lhsBatch := []
  rhsBatch := []
  wf := dot_S32x768_S768x768_S32x768_1_0_0_1_n_n_wf

abbrev win0_0 : Pipeline.Window sig grid0 :=
  Pipeline.Window.ofSpec (Memref.whole main_arg0) S1x256x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x128x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S768x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S768x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S768x768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S768.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S768x768.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v17) S768x768.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg8) S768.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v22) S1x256x768.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v22) S1x64x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1x32x768.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S768x768.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S768x768.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S768.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v23) S1x64x32x768.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8x256x768 : Shape := ⟨3, ![8, 256, 768]⟩
abbrev S8x32x768 : Shape := ⟨3, ![8, 32, 768]⟩
abbrev S8x128x768 : Shape := ⟨3, ![8, 128, 768]⟩
abbrev S768x768 : Shape := ⟨2, ![768, 768]⟩
abbrev S768 : Shape := ⟨1, ![768]⟩
abbrev S1536x768 : Shape := ⟨2, ![1536, 768]⟩
abbrev S1536 : Shape := ⟨1, ![1536]⟩
abbrev S768x1536 : Shape := ⟨2, ![768, 1536]⟩
abbrev S1x1x768 : Shape := ⟨3, ![1, 1, 768]⟩
abbrev S8x128x1536 : Shape := ⟨3, ![8, 128, 1536]⟩
abbrev S1x1x1536 : Shape := ⟨3, ![1, 1, 1536]⟩
abbrev S8x256x128 : Shape := ⟨3, ![8, 256, 128]⟩
abbrev S_ : Shape := ⟨0, ![]⟩
abbrev S8x256 : Shape := ⟨2, ![8, 256]⟩
abbrev S8x256x1 : Shape := ⟨3, ![8, 256, 1]⟩
abbrev S8x256x1x768 : Shape := ⟨4, ![8, 256, 1, 768]⟩
abbrev S8x256x32x768 : Shape := ⟨4, ![8, 256, 32, 768]⟩
abbrev S8x1x32x768 : Shape := ⟨4, ![8, 1, 32, 768]⟩
abbrev S1x1x1x768 : Shape := ⟨4, ![1, 1, 1, 768]⟩

abbrev nBuf : Space → Nat
  | .hbm => 90
  | .vmem => 0
  | .smem => 0
  | _ => 0

abbrev bufTy : (tb : Table) → Fin (tcTables nBuf tb) → BufTy
  | .hbm, ⟨0, _⟩ => ⟨S8x256x768, .f32⟩
  | .hbm, ⟨1, _⟩ => ⟨S8x32x768, .f32⟩
  | .hbm, ⟨2, _⟩ => ⟨S8x128x768, .f32⟩
  | .hbm, ⟨3, _⟩ => ⟨S768x768, .f32⟩
  | .hbm, ⟨4, _⟩ => ⟨S768, .f32⟩
  | .hbm, ⟨5, _⟩ => ⟨S1536x768, .f32⟩
  | .hbm, ⟨6, _⟩ => ⟨S1536, .f32⟩
  | .hbm, ⟨7, _⟩ => ⟨S768x1536, .f32⟩
  | .hbm, ⟨8, _⟩ => ⟨S768, .f32⟩
  | .hbm, ⟨9, _⟩ => ⟨S768x1536, .f32⟩
  | .hbm, ⟨10, _⟩ => ⟨S768, .f32⟩
  | .hbm, ⟨11, _⟩ => ⟨S8x256x768, .f32⟩
  | .hbm, ⟨12, _⟩ => ⟨S1x1x768, .f32⟩
  | .hbm, ⟨13, _⟩ => ⟨S8x256x768, .f32⟩
  | .hbm, ⟨14, _⟩ => ⟨S8x256x768, .f32⟩
  | .hbm, ⟨15, _⟩ => ⟨S8x128x1536, .f32⟩
  | .hbm, ⟨16, _⟩ => ⟨S1x1x1536, .f32⟩
  | .hbm, ⟨17, _⟩ => ⟨S8x128x1536, .f32⟩
  | .hbm, ⟨18, _⟩ => ⟨S8x128x1536, .f32⟩
  | .hbm, ⟨19, _⟩ => ⟨S8x128x768, .f32⟩
  | .hbm, ⟨20, _⟩ => ⟨S8x128x768, .f32⟩
  | .hbm, ⟨21, _⟩ => ⟨S8x256x128, .f32⟩
  | .hbm, ⟨22, _⟩ => ⟨S_, .f32⟩
  | .hbm, ⟨23, _⟩ => ⟨S8x256x128, .f32⟩
  | .hbm, ⟨24, _⟩ => ⟨S8x256x128, .f32⟩
  | .hbm, ⟨25, _⟩ => ⟨S_, .f32⟩
  | .hbm, ⟨26, _⟩ => ⟨S8x256, .f32⟩
  | .hbm, ⟨27, _⟩ => ⟨S_, .f32⟩
  | .hbm, ⟨28, _⟩ => ⟨S8x256, .f32⟩
  | .hbm, ⟨29, _⟩ => ⟨S8x256, .f32⟩
  | .hbm, ⟨30, _⟩ => ⟨S8x256x1, .f32⟩
  | .hbm, ⟨31, _⟩ => ⟨S8x256x128, .f32⟩
  | .hbm, ⟨32, _⟩ => ⟨S8x256x128, .f32⟩
  | .hbm, ⟨33, _⟩ => ⟨S8x256x128, .f32⟩
  | .hbm, ⟨34, _⟩ => ⟨S_, .f32⟩
  | .hbm, ⟨35, _⟩ => ⟨S8x256, .f32⟩
  | .hbm, ⟨36, _⟩ => ⟨S8x256x1, .f32⟩
  | .hbm, ⟨37, _⟩ => ⟨S8x256x128, .f32⟩
  | .hbm, ⟨38, _⟩ => ⟨S8x256x128, .f32⟩
  | .hbm, ⟨39, _⟩ => ⟨S8x256x768, .f32⟩
  | .hbm, ⟨40, _⟩ => ⟨S8x256x1x768, .f32⟩
  | .hbm, ⟨41, _⟩ => ⟨S8x256x32x768, .f32⟩
  | .hbm, ⟨42, _⟩ => ⟨S8x256x1x768, .f32⟩
  | .hbm, ⟨43, _⟩ => ⟨S8x256x32x768, .f32⟩
  | .hbm, ⟨44, _⟩ => ⟨S8x1x32x768, .f32⟩
  | .hbm, ⟨45, _⟩ => ⟨S8x256x32x768, .f32⟩
  | .hbm, ⟨46, _⟩ => ⟨S768x768, .f32⟩
  | .hbm, ⟨47, _⟩ => ⟨S768x768, .f32⟩
  | .hbm, ⟨48, _⟩ => ⟨S8x256x32x768, .f32⟩
  | .hbm, ⟨49, _⟩ => ⟨S8x256x32x768, .f32⟩
  | .hbm, ⟨50, _⟩ => ⟨S8x256x32x768, .f32⟩
  | .hbm, ⟨51, _⟩ => ⟨S1x1x1x768, .f32⟩
  | .hbm, ⟨52, _⟩ => ⟨S8x256x32x768, .f32⟩
  | .hbm, ⟨53, _⟩ => ⟨S8x256x32x768, .f32⟩
  | .hbm, ⟨54, _⟩ => ⟨S8x256x32x768, .f32⟩
  | .hbm, ⟨55, _⟩ => ⟨S8x256x32x768, .f32⟩
  | .hbm, ⟨56, _⟩ => ⟨S_, .f32⟩
  | .hbm, ⟨57, _⟩ => ⟨S8x256x32x768, .f32⟩
  | .hbm, ⟨58, _⟩ => ⟨S8x256x32x768, .f32⟩
  | .hbm, ⟨59, _⟩ => ⟨S_, .f32⟩
  | .hbm, ⟨60, _⟩ => ⟨S8x256x32x768, .f32⟩
  | .hbm, ⟨61, _⟩ => ⟨S8x256x32x768, .f32⟩
  | .hbm, ⟨62, _⟩ => ⟨S8x256x32x768, .f32⟩
  | .hbm, ⟨63, _⟩ => ⟨S_, .f32⟩
  | .hbm, ⟨64, _⟩ => ⟨S8x256x32x768, .f32⟩
  | .hbm, ⟨65, _⟩ => ⟨S8x256x32x768, .f32⟩
  | .hbm, ⟨66, _⟩ => ⟨S8x256x32x768, .f32⟩
  | .hbm, ⟨67, _⟩ => ⟨S8x256x32x768, .f32⟩
  | .hbm, ⟨68, _⟩ => ⟨S768x768, .f32⟩
  | .hbm, ⟨69, _⟩ => ⟨S768x768, .f32⟩
  | .hbm, ⟨70, _⟩ => ⟨S8x256x32x768, .f32⟩
  | .hbm, ⟨71, _⟩ => ⟨S8x256x32x768, .f32⟩
  | .hbm, ⟨72, _⟩ => ⟨S8x256x32x768, .f32⟩
  | .hbm, ⟨73, _⟩ => ⟨S1x1x1x768, .f32⟩
  | .hbm, ⟨74, _⟩ => ⟨S8x256x32x768, .f32⟩
  | .hbm, ⟨75, _⟩ => ⟨S8x256x32x768, .f32⟩
  | .hbm, ⟨76, _⟩ => ⟨S8x256x32x768, .f32⟩
  | .hbm, ⟨77, _⟩ => ⟨S8x256x32x768, .f32⟩
  | .hbm, ⟨78, _⟩ => ⟨S_, .f32⟩
  | .hbm, ⟨79, _⟩ => ⟨S8x256x32x768, .f32⟩
  | .hbm, ⟨80, _⟩ => ⟨S8x256x32x768, .f32⟩
  | .hbm, ⟨81, _⟩ => ⟨S_, .f32⟩
  | .hbm, ⟨82, _⟩ => ⟨S8x256x32x768, .f32⟩
  | .hbm, ⟨83, _⟩ => ⟨S8x256x32x768, .f32⟩
  | .hbm, ⟨84, _⟩ => ⟨S8x256x32x768, .f32⟩
  | .hbm, ⟨85, _⟩ => ⟨S_, .f32⟩
  | .hbm, ⟨86, _⟩ => ⟨S8x256x32x768, .f32⟩
  | .hbm, ⟨87, _⟩ => ⟨S8x256x32x768, .f32⟩
  | .hbm, ⟨88, _⟩ => ⟨S8x256x32x768, .f32⟩
  | .hbm, ⟨89, _⟩ => ⟨S8x256x32x768, .f32⟩
  | _, _ => ⟨S8x256x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_3 : Ref sig .tc := ⟨.hbm, 56, rfl⟩
abbrev main_v41 : Ref sig .tc := ⟨.hbm, 57, rfl⟩
abbrev main_v42 : Ref sig .tc := ⟨.hbm, 58, rfl⟩
abbrev main_cst_4 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_5 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_6 : Ref sig .tc := ⟨.hbm, 78, rfl⟩
abbrev main_v60 : Ref sig .tc := ⟨.hbm, 79, rfl⟩
abbrev main_v61 : Ref sig .tc := ⟨.hbm, 80, rfl⟩
abbrev main_cst_7 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_8 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩

abbrev nD : Nat := 1
abbrev τ : Topo := Topo.v7x

variable {F : FTy → Type} [FloatOps F]

class Facts₀ : Prop where
  bcast_S768_S1x1x768_2 : S768.BroadcastsInDim S1x1x768 (![2] : Fin 1 → Fin S1x1x768.rank)
  bcast_S1x1x768_S8x256x768_0_1_2 : S1x1x768.BroadcastsInDim S8x256x768 (![0, 1, 2] : Fin 3 → Fin S8x256x768.rank)
  bcast_S1536_S1x1x1536_2 : S1536.BroadcastsInDim S1x1x1536 (![2] : Fin 1 → Fin S1x1x1536.rank)
  bcast_S1x1x1536_S8x128x1536_0_1_2 : S1x1x1536.BroadcastsInDim S8x128x1536 (![0, 1, 2] : Fin 3 → Fin S8x128x1536.rank)
  slices_S8x128x1536_S8x128x768_0_0_0 : S8x128x1536.Slices ![0, 0, 0] S8x128x768
  slices_S8x128x1536_S8x128x768_0_0_768 : S8x128x1536.Slices ![0, 0, 768] S8x128x768
  bcast_S_S8x256x128 : S_.BroadcastsInDim S8x256x128 (![] : Fin 0 → Fin S8x256x128.rank)
  reducesTo_S8x256x128_S8x256_d2 : S8x256x128.ReducesTo [2] S8x256
  h_S_ : 0 < S_.numel
  bcast_S_S8x256 : S_.BroadcastsInDim S8x256 (![] : Fin 0 → Fin S8x256.rank)
  bcast_S8x256_S8x256x1_0_1 : S8x256.BroadcastsInDim S8x256x1 (![0, 1] : Fin 2 → Fin S8x256x1.rank)
  bcast_S8x256x1_S8x256x128_0_1_2 : S8x256x1.BroadcastsInDim S8x256x128 (![0, 1, 2] : Fin 3 → Fin S8x256x128.rank)
  bcast_S8x256x768_S8x256x1x768_0_1_3 : S8x256x768.BroadcastsInDim S8x256x1x768 (![0, 1, 3] : Fin 3 → Fin S8x256x1x768.rank)
  bcast_S8x256x1x768_S8x256x32x768_0_1_2_3 : S8x256x1x768.BroadcastsInDim S8x256x32x768 (![0, 1, 2, 3] : Fin 4 → Fin S8x256x32x768.rank)
  bcast_S8x32x768_S8x1x32x768_0_2_3 : S8x32x768.BroadcastsInDim S8x1x32x768 (![0, 2, 3] : Fin 3 → Fin S8x1x32x768.rank)
  bcast_S8x1x32x768_S8x256x32x768_0_1_2_3 : S8x1x32x768.BroadcastsInDim S8x256x32x768 (![0, 1, 2, 3] : Fin 4 → Fin S8x256x32x768.rank)
  slices_S768x1536_S768x768_0_0 : S768x1536.Slices ![0, 0] S768x768
  slices_S768x1536_S768x768_0_768 : S768x1536.Slices ![0, 768] S768x768
  bcast_S768_S1x1x1x768_3 : S768.BroadcastsInDim S1x1x1x768 (![3] : Fin 1 → Fin S1x1x1x768.rank)
  bcast_S1x1x1x768_S8x256x32x768_0_1_2_3 : S1x1x1x768.BroadcastsInDim S8x256x32x768 (![0, 1, 2, 3] : Fin 4 → Fin S8x256x32x768.rank)
  bcast_S_S8x256x32x768 : S_.BroadcastsInDim S8x256x32x768 (![] : Fin 0 → Fin S8x256x32x768.rank)
  dot_S8x256x768_S768x768_S8x256x768_2_1_01_0_n_n_wf : DotDims.WF S8x256x768 S768x768 S8x256x768 [2] [1] [0, 1] [0] [] []
  dot_S8x128x768_S1536x768_S8x128x1536_2_1_01_0_n_n_wf : DotDims.WF S8x128x768 S1536x768 S8x128x1536 [2] [1] [0, 1] [0] [] []
  dot_S8x256x768_S8x128x768_S8x256x128_2_2_1_1_0_0_wf : DotDims.WF S8x256x768 S8x128x768 S8x256x128 [2] [2] [1] [1] [0] [0]
  dot_S8x256x128_S8x128x768_S8x256x768_2_1_1_2_0_0_wf : DotDims.WF S8x256x128 S8x128x768 S8x256x768 [2] [1] [1] [2] [0] [0]
  dot_S8x256x32x768_S768x768_S8x256x32x768_3_1_012_0_n_n_wf : DotDims.WF S8x256x32x768 S768x768 S8x256x32x768 [3] [1] [0, 1, 2] [0] [] []

variable [Facts₀]

def dot_S8x256x768_S768x768_S8x256x768_2_1_01_0_n_n : DotDims S8x256x768 S768x768 S8x256x768 where
  lhsContracting := [2]
  rhsContracting := [1]
  lhsNonContracting := [0, 1]
  rhsNonContracting := [0]
  lhsBatch := []
  rhsBatch := []
  wf := dot_S8x256x768_S768x768_S8x256x768_2_1_01_0_n_n_wf
def dot_S8x128x768_S1536x768_S8x128x1536_2_1_01_0_n_n : DotDims S8x128x768 S1536x768 S8x128x1536 where
  lhsContracting := [2]
  rhsContracting := [1]
  lhsNonContracting := [0, 1]
  rhsNonContracting := [0]
  lhsBatch := []
  rhsBatch := []
  wf := dot_S8x128x768_S1536x768_S8x128x1536_2_1_01_0_n_n_wf
def dot_S8x256x768_S8x128x768_S8x256x128_2_2_1_1_0_0 : DotDims S8x256x768 S8x128x768 S8x256x128 where
  lhsContracting := [2]
  rhsContracting := [2]
  lhsNonContracting := [1]
  rhsNonContracting := [1]
  lhsBatch := [0]
  rhsBatch := [0]
  wf := dot_S8x256x768_S8x128x768_S8x256x128_2_2_1_1_0_0_wf
def dot_S8x256x128_S8x128x768_S8x256x768_2_1_1_2_0_0 : DotDims S8x256x128 S8x128x768 S8x256x768 where
  lhsContracting := [2]
  rhsContracting := [1]
  lhsNonContracting := [1]
  rhsNonContracting := [2]
  lhsBatch := [0]
  rhsBatch := [0]
  wf := dot_S8x256x128_S8x128x768_S8x256x768_2_1_1_2_0_0_wf
def dot_S8x256x32x768_S768x768_S8x256x32x768_3_1_012_0_n_n : DotDims S8x256x32x768 S768x768 S8x256x32x768 where
  lhsContracting := [3]
  rhsContracting := [1]
  lhsNonContracting := [0, 1, 2]
  rhsNonContracting := [0]
  lhsBatch := []
  rhsBatch := []
  wf := dot_S8x256x32x768_S768x768_S8x256x32x768_3_1_012_0_n_n_wf

class Facts : Prop extends Facts₀ where

variable [Facts]
-- ==== Proof.Spec.lean ====
/-
  Cross-attention followed by two sigmoid-gated blends, as ONE function of the eleven argument arrays, entry by entry
  on the extended reals.

  With x : [8,256,768] (queries' side), g : [8,128,768] (keys' and values' side), s : [8,32,768]:
    query   q(b,l,o) = (Σ_h x(b,l,h) · Wq(o,h)) + bq(o)
    key     k(b,m,o) = (Σ_h g(b,m,h) · Wkv(o,h)) + bkv(o)                  the first 768 rows of Wkv
    value   v(b,m,o) = (Σ_h g(b,m,h) · Wkv(768+o,h)) + bkv(768+o)          the last 768 rows
    score   z(b,l,m) = (Σ_h q(b,l,h) · k(b,m,h)) / D                       D the divisor's 32-bit word, kept as a word
    softmax over m, shifted by the row's maximum (taken from −∞, and once more against −∞):
            e(b,l,m) = exp (z(b,l,m) − max_m z(b,l,m)),   p = e / Σ_m e
    context c(b,l,o) = Σ_m p(b,l,m) · v(b,m,o)
    first blend, the gate a sigmoid of an affine form in x and c (Wg1's two column halves):
            a(b,l,o) = σ((Σ_h x(b,l,h)·Wg1(o,h) + Σ_h c(b,l,h)·Wg1(o,768+h)) + bg1(o))
            f(b,l,o) = a · x(b,l,o) + (1 − a) · c(b,l,o)
    second blend, f against s, one result per pair (l, k):
            t(b,l,k,o) = σ((Σ_h f(b,l,h)·Wg2(o,h) + Σ_h s(b,k,h)·Wg2(o,768+h)) + bg2(o))
            r(b,l,k,o) = t · f(b,l,o) + (1 − t) · s(b,k,o)

  Every sum is a finite sum of extended reals in the order of its index type; nothing here needs the entries finite.
-/
import Idealize.ShloMosaic.PureOps.Ideal
import Idealize.ShloMosaic.Lib.ValueIdx

noncomputable section

open scoped BigOperators

namespace Cert.GatedAttention

open Idealize.ShloMosaic Idealize.ShloMosaic.ValueIdx

/-- Row `o` of the first half of a 1536-long axis. -/
def lo (o : Fin 768) : Fin 1536 := ⟨o.val, by omega⟩
/-- Row `o` of the second half of a 1536-long axis. -/
def hi (o : Fin 768) : Fin 1536 := ⟨768 + o.val, by omega⟩

/-- The divisor of the scores, as the 32-bit word the reference carries. -/
abbrev scaleWord : BitVec 32 := 0x41DDB3D7#32
/-- The word of −∞. -/
abbrev negInfWord : BitVec 32 := 0xFF800000#32
/-- The word of 1. -/
abbrev oneWord : BitVec 32 := 0x3F800000#32

section
variable (x : FVec Ideal ⟨3, ![8, 256, 768]⟩ .f32) (s : FVec Ideal ⟨3, ![8, 32, 768]⟩ .f32)
  (g : FVec Ideal ⟨3, ![8, 128, 768]⟩ .f32)
  (Wq : FVec Ideal ⟨2, ![768, 768]⟩ .f32) (bq : FVec Ideal ⟨1, ![768]⟩ .f32)
  (Wkv : FVec Ideal ⟨2, ![1536, 768]⟩ .f32) (bkv : FVec Ideal ⟨1, ![1536]⟩ .f32)
  (Wg1 : FVec Ideal ⟨2, ![768, 1536]⟩ .f32) (bg1 : FVec Ideal ⟨1, ![768]⟩ .f32)
  (Wg2 : FVec Ideal ⟨2, ![768, 1536]⟩ .f32) (bg2 : FVec Ideal ⟨1, ![768]⟩ .f32)

def query (b : Fin 8) (l : Fin 256) (o : Fin 768) : EReal :=
  (∑ h : Fin 768, x (ix3 b l h) * Wq (ix2 o h)) + bq (ix1 o)

def key (b : Fin 8) (m : Fin 128) (o : Fin 768) : EReal :=
  (∑ h : Fin 768, g (ix3 b m h) * Wkv (ix2 (lo o) h)) + bkv (ix1 (lo o))

def value (b : Fin 8) (m : Fin 128) (o : Fin 768) : EReal :=
  (∑ h : Fin 768, g (ix3 b m h) * Wkv (ix2 (hi o) h)) + bkv (ix1 (hi o))

def score (b : Fin 8) (l : Fin 256) (m : Fin 128) : EReal :=
  Ideal.div (∑ h : Fin 768, query x Wq bq b l h * key g Wkv bkv b m h) (Ideal.ofBits .f32 scaleWord)

/-- The row's maximum: the fold of `max` from −∞ over the 128 scores, then once more against −∞. -/
def rowMax (b : Fin 8) (l : Fin 256) : EReal :=
  max (Ideal.ofBits .f32 negInfWord)
    ((Finset.univ : Finset (Fin 128)).fold max (Ideal.ofBits .f32 negInfWord) fun m => score x g Wq bq Wkv bkv b l m)

def expo (b : Fin 8) (l : Fin 256) (m : Fin 128) : EReal :=
  Ideal.exp (score x g Wq bq Wkv bkv b l m - rowMax x g Wq bq Wkv bkv b l)

def weight (b : Fin 8) (l : Fin 256) (m : Fin 128) : EReal :=
  Ideal.div (expo x g Wq bq Wkv bkv b l m) (∑ m' : Fin 128, expo x g Wq bq Wkv bkv b l m')

def context (b : Fin 8) (l : Fin 256) (o : Fin 768) : EReal :=
  ∑ m : Fin 128, weight x g Wq bq Wkv bkv b l m * value g Wkv bkv b m o

def gate1 (b : Fin 8) (l : Fin 256) (o : Fin 768) : EReal :=
  Ideal.logistic (((∑ h : Fin 768, x (ix3 b l h) * Wg1 (ix2 o (lo h)))
      + (∑ h : Fin 768, context x g Wq bq Wkv bkv b l h * Wg1 (ix2 o (hi h)))) + bg1 (ix1 o))

def fused (b : Fin 8) (l : Fin 256) (o : Fin 768) : EReal :=
  gate1 x g Wq bq Wkv bkv Wg1 bg1 b l o * x (ix3 b l o)
    + (Ideal.ofBits .f32 oneWord - gate1 x g Wq bq Wkv bkv Wg1 bg1 b l o) * context x g Wq bq Wkv bkv b l o

def gate2 (b : Fin 8) (l : Fin 256) (k : Fin 32) (o : Fin 768) : EReal :=
  Ideal.logistic (((∑ h : Fin 768, fused x g Wq bq Wkv bkv Wg1 bg1 b l h * Wg2 (ix2 o (lo h)))
      + (∑ h : Fin 768, s (ix3 b k h) * Wg2 (ix2 o (hi h)))) + bg2 (ix1 o))

def result (b : Fin 8) (l : Fin 256) (k : Fin 32) (o : Fin 768) : EReal :=
  gate2 x s g Wq bq Wkv bkv Wg1 bg1 Wg2 bg2 b l k o * fused x g Wq bq Wkv bkv Wg1 bg1 b l o
    + (Ideal.ofBits .f32 oneWord - gate2 x s g Wq bq Wkv bkv Wg1 bg1 Wg2 bg2 b l k o) * s (ix3 b k o)

/-- The first blend as an array `[8, 256, 768]`: what the first of the kernel's two calls leaves for the second. -/
def fusedArr : FVec Ideal ⟨3, ![8, 256, 768]⟩ .f32 :=
  fun i => fused x g Wq bq Wkv bkv Wg1 bg1 (i 0) (i 1) (i 2)

/-- The result array `[8, 256, 32, 768]`. -/
def resultArr : FVec Ideal ⟨4, ![8, 256, 32, 768]⟩ .f32 :=
  fun i => result x s g Wq bq Wkv bkv Wg1 bg1 Wg2 bg2 (i 0) (i 1) (i 2) (i 3)

end

end Cert.GatedAttention

end
-- ==== Proof.KernelDots.lean ====
/-
  The kernel's matrix products read at an index. Each `tpu.matmul` of the two bodies multiplies an [a, K] operand by a
  [K, b] operand into an accumulator of zeros, contracting the left operand's columns with the right operand's rows;
  on the extended reals its entry (i, j) is the plain sum Σ_k left(i, k) · right(k, j) — no rounding, no order.
-/
import proofs.«165018_j42296837931312_1_alg».proof.Proof.Gen.KernelIdeal
import proofs.«165018_j42296837931312_1_alg».proof.Proof.Spec
import Idealize.ShloMosaic.PureOps.Ideal.Laws
import Idealize.ShloMosaic.Lib.ValueIdx

set_option maxRecDepth 16384

noncomputable section

open scoped BigOperators

namespace Cert.KernelIdeal.BodyValue

open Cert.KernelIdeal Cert.KernelIdeal.Gen Cert.GatedAttention
open Idealize.ShloMosaic Idealize.ShloMosaic.ValueIdx

/-! ### [256, 768] × [768, 768] -/

theorem lhs0_256_768_768 (i : S256x768.Idx) (q : dot_S256x768_S768x768_S256x768_1_0_0_1_n_n.contr.Idx) : (dot_S256x768_S768x768_S256x768_1_0_0_1_n_n.lhsIdx i q 0).val = (i 0).val := by
  unfold DotDims.lhsIdx
  rw [dif_neg (show ¬(0 : Fin S256x768.rank) ∈ dot_S256x768_S768x768_S256x768_1_0_0_1_n_n.lhsBatch by decide), dif_pos (show (0 : Fin S256x768.rank) ∈ dot_S256x768_S768x768_S256x768_1_0_0_1_n_n.lhsNonContracting by decide)]
  rfl
theorem lhs1_256_768_768 (i : S256x768.Idx) (q : dot_S256x768_S768x768_S256x768_1_0_0_1_n_n.contr.Idx) : (dot_S256x768_S768x768_S256x768_1_0_0_1_n_n.lhsIdx i q 1).val = (q ⟨0, by decide⟩).val :=
  dot_S256x768_S768x768_S256x768_1_0_0_1_n_n.lhsIdx_val_of_single rfl i q
theorem rhs0_256_768_768 (i : S256x768.Idx) (q : dot_S256x768_S768x768_S256x768_1_0_0_1_n_n.contr.Idx) : (dot_S256x768_S768x768_S256x768_1_0_0_1_n_n.rhsIdx i q 0).val = (q ⟨0, by decide⟩).val :=
  dot_S256x768_S768x768_S256x768_1_0_0_1_n_n.rhsIdx_val_of_single rfl i q
theorem rhs1_256_768_768 (i : S256x768.Idx) (q : dot_S256x768_S768x768_S256x768_1_0_0_1_n_n.contr.Idx) : (dot_S256x768_S768x768_S256x768_1_0_0_1_n_n.rhsIdx i q 1).val = (i 1).val := by
  unfold DotDims.rhsIdx
  rw [dif_neg (show ¬(1 : Fin S768x768.rank) ∈ dot_S256x768_S768x768_S256x768_1_0_0_1_n_n.rhsBatch by decide), dif_pos (show (1 : Fin S768x768.rank) ∈ dot_S256x768_S768x768_S256x768_1_0_0_1_n_n.rhsNonContracting by decide)]
  rfl

/-- The [256, 768] × [768, 768] product at (i, j). -/
theorem mm_256_768_768 {φ₁ φ₂ : FTy} (lhs : FVec Ideal S256x768 φ₁) (rhs : FVec Ideal S768x768 φ₂) (i : Fin 256) (j : Fin 768) :
    matmul dot_S256x768_S768x768_S256x768_1_0_0_1_n_n none lhs rhs (constant S256x768 .f32 0x00000000#32) (ix2 i j) = ∑ k : Fin 768, lhs (ix2 i k) * rhs (ix2 k j) := by
  simp only [matmul]
  rw [Ideal.matmul_constant_zero_apply, ← Equiv.sum_comp (contrEquiv1 dot_S256x768_S768x768_S256x768_1_0_0_1_n_n 768 rfl rfl).symm]
  refine Finset.sum_congr rfl fun k _ => ?_
  have hk := contrEquiv1_symm_val dot_S256x768_S768x768_S256x768_1_0_0_1_n_n 768 rfl rfl k
  have el : dot_S256x768_S768x768_S256x768_1_0_0_1_n_n.lhsIdx (ix2 i j) ((contrEquiv1 dot_S256x768_S768x768_S256x768_1_0_0_1_n_n 768 rfl rfl).symm k) = ix2 i k := funext fun a => Fin.ext (by
    match a with
    | ⟨0, _⟩ => exact lhs0_256_768_768 _ _
    | ⟨1, _⟩ => exact (lhs1_256_768_768 _ _).trans hk)
  have er : dot_S256x768_S768x768_S256x768_1_0_0_1_n_n.rhsIdx (ix2 i j) ((contrEquiv1 dot_S256x768_S768x768_S256x768_1_0_0_1_n_n 768 rfl rfl).symm k) = ix2 k j := funext fun a => Fin.ext (by
    match a with
    | ⟨0, _⟩ => exact (rhs0_256_768_768 _ _).trans hk
    | ⟨1, _⟩ => exact rhs1_256_768_768 _ _)
  rw [el, er]

/-! ### [128, 768] × [768, 768] -/

theorem lhs0_128_768_768 (i : S128x768.Idx) (q : dot_S128x768_S768x768_S128x768_1_0_0_1_n_n.contr.Idx) : (dot_S128x768_S768x768_S128x768_1_0_0_1_n_n.lhsIdx i q 0).val = (i 0).val := by
  unfold DotDims.lhsIdx
  rw [dif_neg (show ¬(0 : Fin S128x768.rank) ∈ dot_S128x768_S768x768_S128x768_1_0_0_1_n_n.lhsBatch by decide), dif_pos (show (0 : Fin S128x768.rank) ∈ dot_S128x768_S768x768_S128x768_1_0_0_1_n_n.lhsNonContracting by decide)]
  rfl
theorem lhs1_128_768_768 (i : S128x768.Idx) (q : dot_S128x768_S768x768_S128x768_1_0_0_1_n_n.contr.Idx) : (dot_S128x768_S768x768_S128x768_1_0_0_1_n_n.lhsIdx i q 1).val = (q ⟨0, by decide⟩).val :=
  dot_S128x768_S768x768_S128x768_1_0_0_1_n_n.lhsIdx_val_of_single rfl i q
theorem rhs0_128_768_768 (i : S128x768.Idx) (q : dot_S128x768_S768x768_S128x768_1_0_0_1_n_n.contr.Idx) : (dot_S128x768_S768x768_S128x768_1_0_0_1_n_n.rhsIdx i q 0).val = (q ⟨0, by decide⟩).val :=
  dot_S128x768_S768x768_S128x768_1_0_0_1_n_n.rhsIdx_val_of_single rfl i q
theorem rhs1_128_768_768 (i : S128x768.Idx) (q : dot_S128x768_S768x768_S128x768_1_0_0_1_n_n.contr.Idx) : (dot_S128x768_S768x768_S128x768_1_0_0_1_n_n.rhsIdx i q 1).val = (i 1).val := by
  unfold DotDims.rhsIdx
  rw [dif_neg (show ¬(1 : Fin S768x768.rank) ∈ dot_S128x768_S768x768_S128x768_1_0_0_1_n_n.rhsBatch by decide), dif_pos (show (1 : Fin S768x768.rank) ∈ dot_S128x768_S768x768_S128x768_1_0_0_1_n_n.rhsNonContracting by decide)]
  rfl

/-- The [128, 768] × [768, 768] product at (i, j). -/
theorem mm_128_768_768 {φ₁ φ₂ : FTy} (lhs : FVec Ideal S128x768 φ₁) (rhs : FVec Ideal S768x768 φ₂) (i : Fin 128) (j : Fin 768) :
    matmul dot_S128x768_S768x768_S128x768_1_0_0_1_n_n none lhs rhs (constant S128x768 .f32 0x00000000#32) (ix2 i j) = ∑ k : Fin 768, lhs (ix2 i k) * rhs (ix2 k j) := by
  simp only [matmul]
  rw [Ideal.matmul_constant_zero_apply, ← Equiv.sum_comp (contrEquiv1 dot_S128x768_S768x768_S128x768_1_0_0_1_n_n 768 rfl rfl).symm]
  refine Finset.sum_congr rfl fun k _ => ?_
  have hk := contrEquiv1_symm_val dot_S128x768_S768x768_S128x768_1_0_0_1_n_n 768 rfl rfl k
  have el : dot_S128x768_S768x768_S128x768_1_0_0_1_n_n.lhsIdx (ix2 i j) ((contrEquiv1 dot_S128x768_S768x768_S128x768_1_0_0_1_n_n 768 rfl rfl).symm k) = ix2 i k := funext fun a => Fin.ext (by
    match a with
    | ⟨0, _⟩ => exact lhs0_128_768_768 _ _
    | ⟨1, _⟩ => exact (lhs1_128_768_768 _ _).trans hk)
  have er : dot_S128x768_S768x768_S128x768_1_0_0_1_n_n.rhsIdx (ix2 i j) ((contrEquiv1 dot_S128x768_S768x768_S128x768_1_0_0_1_n_n 768 rfl rfl).symm k) = ix2 k j := funext fun a => Fin.ext (by
    match a with
    | ⟨0, _⟩ => exact (rhs0_128_768_768 _ _).trans hk
    | ⟨1, _⟩ => exact rhs1_128_768_768 _ _)
  rw [el, er]

/-! ### [256, 768] × [768, 128] -/

theorem lhs0_256_768_128 (i : S256x128.Idx) (q : dot_S256x768_S768x128_S256x128_1_0_0_1_n_n.contr.Idx) : (dot_S256x768_S768x128_S256x128_1_0_0_1_n_n.lhsIdx i q 0).val = (i 0).val := by
  unfold DotDims.lhsIdx
  rw [dif_neg (show ¬(0 : Fin S256x768.rank) ∈ dot_S256x768_S768x128_S256x128_1_0_0_1_n_n.lhsBatch by decide), dif_pos (show (0 : Fin S256x768.rank) ∈ dot_S256x768_S768x128_S256x128_1_0_0_1_n_n.lhsNonContracting by decide)]
  rfl
theorem lhs1_256_768_128 (i : S256x128.Idx) (q : dot_S256x768_S768x128_S256x128_1_0_0_1_n_n.contr.Idx) : (dot_S256x768_S768x128_S256x128_1_0_0_1_n_n.lhsIdx i q 1).val = (q ⟨0, by decide⟩).val :=
  dot_S256x768_S768x128_S256x128_1_0_0_1_n_n.lhsIdx_val_of_single rfl i q
theorem rhs0_256_768_128 (i : S256x128.Idx) (q : dot_S256x768_S768x128_S256x128_1_0_0_1_n_n.contr.Idx) : (dot_S256x768_S768x128_S256x128_1_0_0_1_n_n.rhsIdx i q 0).val = (q ⟨0, by decide⟩).val :=
  dot_S256x768_S768x128_S256x128_1_0_0_1_n_n.rhsIdx_val_of_single rfl i q
theorem rhs1_256_768_128 (i : S256x128.Idx) (q : dot_S256x768_S768x128_S256x128_1_0_0_1_n_n.contr.Idx) : (dot_S256x768_S768x128_S256x128_1_0_0_1_n_n.rhsIdx i q 1).val = (i 1).val := by
  unfold DotDims.rhsIdx
  rw [dif_neg (show ¬(1 : Fin S768x128.rank) ∈ dot_S256x768_S768x128_S256x128_1_0_0_1_n_n.rhsBatch by decide), dif_pos (show (1 : Fin S768x128.rank) ∈ dot_S256x768_S768x128_S256x128_1_0_0_1_n_n.rhsNonContracting by decide)]
  rfl

/-- The [256, 768] × [768, 128] product at (i, j). -/
theorem mm_256_768_128 {φ₁ φ₂ : FTy} (lhs : FVec Ideal S256x768 φ₁) (rhs : FVec Ideal S768x128 φ₂) (i : Fin 256) (j : Fin 128) :
    matmul dot_S256x768_S768x128_S256x128_1_0_0_1_n_n none lhs rhs (constant S256x128 .f32 0x00000000#32) (ix2 i j) = ∑ k : Fin 768, lhs (ix2 i k) * rhs (ix2 k j) := by
  simp only [matmul]
  rw [Ideal.matmul_constant_zero_apply, ← Equiv.sum_comp (contrEquiv1 dot_S256x768_S768x128_S256x128_1_0_0_1_n_n 768 rfl rfl).symm]
  refine Finset.sum_congr rfl fun k _ => ?_
  have hk := contrEquiv1_symm_val dot_S256x768_S768x128_S256x128_1_0_0_1_n_n 768 rfl rfl k
  have el : dot_S256x768_S768x128_S256x128_1_0_0_1_n_n.lhsIdx (ix2 i j) ((contrEquiv1 dot_S256x768_S768x128_S256x128_1_0_0_1_n_n 768 rfl rfl).symm k) = ix2 i k := funext fun a => Fin.ext (by
    match a with
    | ⟨0, _⟩ => exact lhs0_256_768_128 _ _
    | ⟨1, _⟩ => exact (lhs1_256_768_128 _ _).trans hk)
  have er : dot_S256x768_S768x128_S256x128_1_0_0_1_n_n.rhsIdx (ix2 i j) ((contrEquiv1 dot_S256x768_S768x128_S256x128_1_0_0_1_n_n 768 rfl rfl).symm k) = ix2 k j := funext fun a => Fin.ext (by
    match a with
    | ⟨0, _⟩ => exact (rhs0_256_768_128 _ _).trans hk
    | ⟨1, _⟩ => exact rhs1_256_768_128 _ _)
  rw [el, er]

/-! ### [256, 128] × [128, 768] -/

theorem lhs0_256_128_768 (i : S256x768.Idx) (q : dot_S256x128_S128x768_S256x768_1_0_0_1_n_n.contr.Idx) : (dot_S256x128_S128x768_S256x768_1_0_0_1_n_n.lhsIdx i q 0).val = (i 0).val := by
  unfold DotDims.lhsIdx
  rw [dif_neg (show ¬(0 : Fin S256x128.rank) ∈ dot_S256x128_S128x768_S256x768_1_0_0_1_n_n.lhsBatch by decide), dif_pos (show (0 : Fin S256x128.rank) ∈ dot_S256x128_S128x768_S256x768_1_0_0_1_n_n.lhsNonContracting by decide)]
  rfl
theorem lhs1_256_128_768 (i : S256x768.Idx) (q : dot_S256x128_S128x768_S256x768_1_0_0_1_n_n.contr.Idx) : (dot_S256x128_S128x768_S256x768_1_0_0_1_n_n.lhsIdx i q 1).val = (q ⟨0, by decide⟩).val :=
  dot_S256x128_S128x768_S256x768_1_0_0_1_n_n.lhsIdx_val_of_single rfl i q
theorem rhs0_256_128_768 (i : S256x768.Idx) (q : dot_S256x128_S128x768_S256x768_1_0_0_1_n_n.contr.Idx) : (dot_S256x128_S128x768_S256x768_1_0_0_1_n_n.rhsIdx i q 0).val = (q ⟨0, by decide⟩).val :=
  dot_S256x128_S128x768_S256x768_1_0_0_1_n_n.rhsIdx_val_of_single rfl i q
theorem rhs1_256_128_768 (i : S256x768.Idx) (q : dot_S256x128_S128x768_S256x768_1_0_0_1_n_n.contr.Idx) : (dot_S256x128_S128x768_S256x768_1_0_0_1_n_n.rhsIdx i q 1).val = (i 1).val := by
  unfold DotDims.rhsIdx
  rw [dif_neg (show ¬(1 : Fin S128x768.rank) ∈ dot_S256x128_S128x768_S256x768_1_0_0_1_n_n.rhsBatch by decide), dif_pos (show (1 : Fin S128x768.rank) ∈ dot_S256x128_S128x768_S256x768_1_0_0_1_n_n.rhsNonContracting by decide)]
  rfl

/-- The [256, 128] × [128, 768] product at (i, j). -/
theorem mm_256_128_768 {φ₁ φ₂ : FTy} (lhs : FVec Ideal S256x128 φ₁) (rhs : FVec Ideal S128x768 φ₂) (i : Fin 256) (j : Fin 768) :
    matmul dot_S256x128_S128x768_S256x768_1_0_0_1_n_n none lhs rhs (constant S256x768 .f32 0x00000000#32) (ix2 i j) = ∑ k : Fin 128, lhs (ix2 i k) * rhs (ix2 k j) := by
  simp only [matmul]
  rw [Ideal.matmul_constant_zero_apply, ← Equiv.sum_comp (contrEquiv1 dot_S256x128_S128x768_S256x768_1_0_0_1_n_n 128 rfl rfl).symm]
  refine Finset.sum_congr rfl fun k _ => ?_
  have hk := contrEquiv1_symm_val dot_S256x128_S128x768_S256x768_1_0_0_1_n_n 128 rfl rfl k
  have el : dot_S256x128_S128x768_S256x768_1_0_0_1_n_n.lhsIdx (ix2 i j) ((contrEquiv1 dot_S256x128_S128x768_S256x768_1_0_0_1_n_n 128 rfl rfl).symm k) = ix2 i k := funext fun a => Fin.ext (by
    match a with
    | ⟨0, _⟩ => exact lhs0_256_128_768 _ _
    | ⟨1, _⟩ => exact (lhs1_256_128_768 _ _).trans hk)
  have er : dot_S256x128_S128x768_S256x768_1_0_0_1_n_n.rhsIdx (ix2 i j) ((contrEquiv1 dot_S256x128_S128x768_S256x768_1_0_0_1_n_n 128 rfl rfl).symm k) = ix2 k j := funext fun a => Fin.ext (by
    match a with
    | ⟨0, _⟩ => exact (rhs0_256_128_768 _ _).trans hk
    | ⟨1, _⟩ => exact rhs1_256_128_768 _ _)
  rw [el, er]

/-! ### [64, 768] × [768, 768] -/

theorem lhs0_64_768_768 (i : S64x768.Idx) (q : dot_S64x768_S768x768_S64x768_1_0_0_1_n_n.contr.Idx) : (dot_S64x768_S768x768_S64x768_1_0_0_1_n_n.lhsIdx i q 0).val = (i 0).val := by
  unfold DotDims.lhsIdx
  rw [dif_neg (show ¬(0 : Fin S64x768.rank) ∈ dot_S64x768_S768x768_S64x768_1_0_0_1_n_n.lhsBatch by decide), dif_pos (show (0 : Fin S64x768.rank) ∈ dot_S64x768_S768x768_S64x768_1_0_0_1_n_n.lhsNonContracting by decide)]
  rfl
theorem lhs1_64_768_768 (i : S64x768.Idx) (q : dot_S64x768_S768x768_S64x768_1_0_0_1_n_n.contr.Idx) : (dot_S64x768_S768x768_S64x768_1_0_0_1_n_n.lhsIdx i q 1).val = (q ⟨0, by decide⟩).val :=
  dot_S64x768_S768x768_S64x768_1_0_0_1_n_n.lhsIdx_val_of_single rfl i q
theorem rhs0_64_768_768 (i : S64x768.Idx) (q : dot_S64x768_S768x768_S64x768_1_0_0_1_n_n.contr.Idx) : (dot_S64x768_S768x768_S64x768_1_0_0_1_n_n.rhsIdx i q 0).val = (q ⟨0, by decide⟩).val :=
  dot_S64x768_S768x768_S64x768_1_0_0_1_n_n.rhsIdx_val_of_single rfl i q
theorem rhs1_64_768_768 (i : S64x768.Idx) (q : dot_S64x768_S768x768_S64x768_1_0_0_1_n_n.contr.Idx) : (dot_S64x768_S768x768_S64x768_1_0_0_1_n_n.rhsIdx i q 1).val = (i 1).val := by
  unfold DotDims.rhsIdx
  rw [dif_neg (show ¬(1 : Fin S768x768.rank) ∈ dot_S64x768_S768x768_S64x768_1_0_0_1_n_n.rhsBatch by decide), dif_pos (show (1 : Fin S768x768.rank) ∈ dot_S64x768_S768x768_S64x768_1_0_0_1_n_n.rhsNonContracting by decide)]
  rfl

/-- The [64, 768] × [768, 768] product at (i, j). -/
theorem mm_64_768_768 {φ₁ φ₂ : FTy} (lhs : FVec Ideal S64x768 φ₁) (rhs : FVec Ideal S768x768 φ₂) (i : Fin 64) (j : Fin 768) :
    matmul dot_S64x768_S768x768_S64x768_1_0_0_1_n_n none lhs rhs (constant S64x768 .f32 0x00000000#32) (ix2 i j) = ∑ k : Fin 768, lhs (ix2 i k) * rhs (ix2 k j) := by
  simp only [matmul]
  rw [Ideal.matmul_constant_zero_apply, ← Equiv.sum_comp (contrEquiv1 dot_S64x768_S768x768_S64x768_1_0_0_1_n_n 768 rfl rfl).symm]
  refine Finset.sum_congr rfl fun k _ => ?_
  have hk := contrEquiv1_symm_val dot_S64x768_S768x768_S64x768_1_0_0_1_n_n 768 rfl rfl k
  have el : dot_S64x768_S768x768_S64x768_1_0_0_1_n_n.lhsIdx (ix2 i j) ((contrEquiv1 dot_S64x768_S768x768_S64x768_1_0_0_1_n_n 768 rfl rfl).symm k) = ix2 i k := funext fun a => Fin.ext (by
    match a with
    | ⟨0, _⟩ => exact lhs0_64_768_768 _ _
    | ⟨1, _⟩ => exact (lhs1_64_768_768 _ _).trans hk)
  have er : dot_S64x768_S768x768_S64x768_1_0_0_1_n_n.rhsIdx (ix2 i j) ((contrEquiv1 dot_S64x768_S768x768_S64x768_1_0_0_1_n_n 768 rfl rfl).symm k) = ix2 k j := funext fun a => Fin.ext (by
    match a with
    | ⟨0, _⟩ => exact (rhs0_64_768_768 _ _).trans hk
    | ⟨1, _⟩ => exact rhs1_64_768_768 _ _)
  rw [el, er]

/-! ### [32, 768] × [768, 768] -/

theorem lhs0_32_768_768 (i : S32x768.Idx) (q : dot_S32x768_S768x768_S32x768_1_0_0_1_n_n.contr.Idx) : (dot_S32x768_S768x768_S32x768_1_0_0_1_n_n.lhsIdx i q 0).val = (i 0).val := by
  unfold DotDims.lhsIdx
  rw [dif_neg (show ¬(0 : Fin S32x768.rank) ∈ dot_S32x768_S768x768_S32x768_1_0_0_1_n_n.lhsBatch by decide), dif_pos (show (0 : Fin S32x768.rank) ∈ dot_S32x768_S768x768_S32x768_1_0_0_1_n_n.lhsNonContracting by decide)]
  rfl
theorem lhs1_32_768_768 (i : S32x768.Idx) (q : dot_S32x768_S768x768_S32x768_1_0_0_1_n_n.contr.Idx) : (dot_S32x768_S768x768_S32x768_1_0_0_1_n_n.lhsIdx i q 1).val = (q ⟨0, by decide⟩).val :=
  dot_S32x768_S768x768_S32x768_1_0_0_1_n_n.lhsIdx_val_of_single rfl i q
theorem rhs0_32_768_768 (i : S32x768.Idx) (q : dot_S32x768_S768x768_S32x768_1_0_0_1_n_n.contr.Idx) : (dot_S32x768_S768x768_S32x768_1_0_0_1_n_n.rhsIdx i q 0).val = (q ⟨0, by decide⟩).val :=
  dot_S32x768_S768x768_S32x768_1_0_0_1_n_n.rhsIdx_val_of_single rfl i q
theorem rhs1_32_768_768 (i : S32x768.Idx) (q : dot_S32x768_S768x768_S32x768_1_0_0_1_n_n.contr.Idx) : (dot_S32x768_S768x768_S32x768_1_0_0_1_n_n.rhsIdx i q 1).val = (i 1).val := by
  unfold DotDims.rhsIdx
  rw [dif_neg (show ¬(1 : Fin S768x768.rank) ∈ dot_S32x768_S768x768_S32x768_1_0_0_1_n_n.rhsBatch by decide), dif_pos (show (1 : Fin S768x768.rank) ∈ dot_S32x768_S768x768_S32x768_1_0_0_1_n_n.rhsNonContracting by decide)]
  rfl

/-- The [32, 768] × [768, 768] product at (i, j). -/
theorem mm_32_768_768 {φ₁ φ₂ : FTy} (lhs : FVec Ideal S32x768 φ₁) (rhs : FVec Ideal S768x768 φ₂) (i : Fin 32) (j : Fin 768) :
    matmul dot_S32x768_S768x768_S32x768_1_0_0_1_n_n none lhs rhs (constant S32x768 .f32 0x00000000#32) (ix2 i j) = ∑ k : Fin 768, lhs (ix2 i k) * rhs (ix2 k j) := by
  simp only [matmul]
  rw [Ideal.matmul_constant_zero_apply, ← Equiv.sum_comp (contrEquiv1 dot_S32x768_S768x768_S32x768_1_0_0_1_n_n 768 rfl rfl).symm]
  refine Finset.sum_congr rfl fun k _ => ?_
  have hk := contrEquiv1_symm_val dot_S32x768_S768x768_S32x768_1_0_0_1_n_n 768 rfl rfl k
  have el : dot_S32x768_S768x768_S32x768_1_0_0_1_n_n.lhsIdx (ix2 i j) ((contrEquiv1 dot_S32x768_S768x768_S32x768_1_0_0_1_n_n 768 rfl rfl).symm k) = ix2 i k := funext fun a => Fin.ext (by
    match a with
    | ⟨0, _⟩ => exact lhs0_32_768_768 _ _
    | ⟨1, _⟩ => exact (lhs1_32_768_768 _ _).trans hk)
  have er : dot_S32x768_S768x768_S32x768_1_0_0_1_n_n.rhsIdx (ix2 i j) ((contrEquiv1 dot_S32x768_S768x768_S32x768_1_0_0_1_n_n 768 rfl rfl).symm k) = ix2 k j := funext fun a => Fin.ext (by
    match a with
    | ⟨0, _⟩ => exact (rhs0_32_768_768 _ _).trans hk
    | ⟨1, _⟩ => exact rhs1_32_768_768 _ _)
  rw [el, er]

end Cert.KernelIdeal.BodyValue

end
-- ==== Proof.LibLayout.lean ====
/-
  Layout operations around a unit MIDDLE or TRAILING axis, read at an index written by coordinates,
  for any element type and any extents: a shape cast that drops or inserts a unit axis in the middle
  ([a,1,b] ↔ [a,b]), the "keepdims" column of a vector ([a] → [a,1]) and its broadcast along the rows
  ([a,1] → [a,b]).  Each is the library's read-at-an-index lemma with the row-major arithmetic done.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A vector `[a]` cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column at row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ValueIdx
-- ==== Proof.LibBroadcast.lean ====
/-
  Broadcasts of a rank-3 array along its unit axes, and a vector cast to a rank-3 row, read at an index written by
  coordinates, for any element type and any extents: [a,1,c] → [a,b,c] reads the operand at (i, 0, k); [1,b,c] → [a,b,c]
  at (0, j, k); [1,1,c] → [a,b,c] at (0, 0, k); and [a] → [1,1,a] reads the vector at i. Each is the library's
  read-at-an-index lemma with the unit axes decided.
-/
import Idealize.ShloMosaic.Lib.Pipeline.Value
import Idealize.ShloMosaic.Lib.ValueIdx

namespace Idealize.ShloMosaic.ValueIdx

open Idealize.ShloMosaic

variable {α : Type}

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A `[1, 1, c]` array broadcast to `[a, b, c]` reads, at `(i, j, k)`, the operand at `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- A vector `[a]` cast to `[1, 1, a]` reads, at `(u, w, i)`, the operand at `i`. -/
theorem shapeCast_a_11a_apply {a : ℕ} (x : (⟨1, ![a]⟩ : Shape).Idx → α)
    (h : (⟨1, ![a]⟩ : Shape).ShapeCasts ⟨3, ![1, 1, a]⟩) (u w : Fin 1) (i : Fin a) :
    shapeCast ⟨3, ![1, 1, a]⟩ x h (ix3 u w i) = x (ix1 i) :=
  shapeCast_apply x h _ _ (by
    have hu : u.val = 0 := by omega
    have hw : w.val = 0 := by omega
    rw [Shape.rowMajor_val_three, Shape.rowMajor_val_one]
    show i.val = (u.val * 1 + w.val) * a + i.val
    rw [hu, hw]
    simp)

end Idealize.ShloMosaic.ValueIdx
-- ==== Proof.Body1Value.lean ====
/-
  The second call's body at one grid point, read at an index. Its blocks are a [1, 64, 768] piece of the first blend
  (rows r of one batch), the batch's [1, 32, 768] piece of s, the two halves of the second gate's weight (already
  transposed: entry (j, o) multiplies input column j into output column o) and the gate's bias. The body forms the two
  affine parts separately — one per row r, one per row k —, adds them at every pair (r, k) by broadcasting each along
  the other's axis, applies the sigmoid, and blends the row of the first operand with the row of the second.
-/
import proofs.«165018_j42296837931312_1_alg».proof.Proof.KernelDots
import proofs.«165018_j42296837931312_1_alg».proof.Proof.Gen.KernelIdeal.Skeleton
import proofs.«165018_j42296837931312_1_alg».proof.Proof.LibLayout
import proofs.«165018_j42296837931312_1_alg».proof.Proof.LibBroadcast
import Idealize.ShloMosaic.Lib.ValueLayout

set_option maxRecDepth 16384

noncomputable section

open scoped BigOperators

namespace Cert.KernelIdeal.BodyValue

open Cert.KernelIdeal Cert.KernelIdeal.Gen Cert.GatedAttention
open Idealize.ShloMosaic Idealize.ShloMosaic.ValueIdx

/-- A sigmoid-gated blend of two numbers: σ(z) · a + (1 − σ(z)) · b, the 1 as its 32-bit word. -/
def blend (z a b : EReal) : EReal :=
  Ideal.logistic z * a + (Ideal.ofBits .f32 oneWord - Ideal.logistic z) * b

theorem logistic_apply {s : Shape} {φ : FTy} (a : FVec Ideal s φ) (i : s.Idx) : logistic a i = Ideal.logistic (a i) := rfl

/-- The second body's one store, at (u, r, k, o): the blend of row r of the first operand with row k of the second,
    gated by the affine form of those two rows. -/
theorem gate2_body_apply (v0 : Vec Ideal S1x64x768 .f32) (v2 : Vec Ideal S1x32x768 .f32)
    (v6 v9 : Vec Ideal S768x768 .bf16) (v17 : Vec Ideal S768 .f32)
    (u : Fin 1) (r : Fin 64) (k : Fin 32) (o : Fin 768) :
    k1_pay1 (F := Ideal) v0 v2 v6 v9 v17 (ix4 u r k o)
      = blend (((∑ j : Fin 768, v0 (ix3 (0 : Fin 1) r j) * v6 (ix2 j o))
            + (∑ j : Fin 768, v2 (ix3 (0 : Fin 1) k j) * v9 (ix2 j o))) + v17 (ix1 o))
          (v0 (ix3 (0 : Fin 1) r o)) (v2 (ix3 (0 : Fin 1) k o)) := by
  simp only [k1_pay1, shapeCast_abc_1abc_apply, addf_apply, mulf_apply, subf_apply, broadcast_apply, logistic_apply,
    broadcastTo_a1c_abc_apply, shapeCast_ab_a1b_apply, broadcastTo_1bc_abc_apply, shapeCast_ab_1ab_apply,
    broadcastTo_11c_abc_apply, shapeCast_a_11a_apply, mm_64_768_768, mm_32_768_768, truncf_apply, shapeCast_self,
    shapeCast_1ab_ab_apply]
  rfl

end Cert.KernelIdeal.BodyValue

end
-- ==== Proof.Body0Value.lean ====
/-
  The first call's body at one grid point (one batch), read at an index.

  Its blocks: X0, the batch's [1, 256, 768] piece of x; X1, its [1, 128, 768] piece of g; the weights already transposed
  (entry (j, o) multiplies input column j into output column o) for the queries (X2), keys (X4), values (X6) and the
  first gate's two halves (X8, X9); the biases X3, X5, X7, X10. In block terms the body computes

    q(r,o) = Σ_j X0(r,j)·X2(j,o) + X3(o),   k(m,o) = Σ_j X1(m,j)·X4(j,o) + X5(o),   v(m,o) likewise with X6, X7,
    z(r,m) = (Σ_h q(r,h)·k(m,h)) · c        c the NAMED scale; the product against k goes through k's transpose,
    the row softmax of z shifted by the row maximum (a fold of max from −∞, taken once more against −∞),
    c(r,o) = Σ_m p(r,m)·v(m,o),
    the blend of row r of X0 with row r of the context, gated by their affine form.
-/
import proofs.«165018_j42296837931312_1_alg».proof.Proof.Body1Value

set_option maxRecDepth 16384

noncomputable section

open scoped BigOperators

namespace Cert.KernelIdeal.BodyValue

open Cert.KernelIdeal Cert.KernelIdeal.Gen Cert.GatedAttention
open Idealize.ShloMosaic Idealize.ShloMosaic.ValueIdx

theorem exp_apply {s : Shape} {φ : FTy} (a : FVec Ideal s φ) (i : s.Idx) : exp a i = Ideal.exp (a i) := rfl

/-- Putting column `m` back at the reduced axis of row `r` gives `(r, m)`. -/
theorem lift_col (r : Fin 256) (m : Fin 128) : reduces_S256x128_S256.lift (ix1 r) m = ix2 r m :=
  funext fun a => Fin.ext (by match a with | ⟨0, _⟩ => rfl | ⟨1, _⟩ => rfl)

/-- The keys' block transposed reads, at (h, m), the block at (m, h). -/
theorem keysT_apply (v : FVec Ideal S128x768 .bf16) (x : Fin 768) (m : Fin 128) :
    transpose S768x128 [1, 0] v transposes_S128x768_p1_0_S768x128 (ix2 x m) = v (ix2 m x) :=
  transpose_ix2_apply v transposes_S128x768_p1_0_S768x128 x m

/-- A row sum of a [256, 128] block. -/
theorem rowSum_apply (src : FVec Ideal S256x128 .f32) (hφ : FKind.Formats .f32)
    (hacc : (0x00000000#32 : BitVec 32) = 0x00000000#32) (r : Fin 256) :
    multiReduction .add [1] S256 src 0x00000000#32 reduces_S256x128_S256 hφ hacc (ix1 r) = ∑ m : Fin 128, src (ix2 r m) :=
  (Ideal.multiReduction_add_single src _ reduces_S256x128_S256 hφ hacc (ix1 r)).trans
    (Finset.sum_congr rfl fun m _ => congrArg src (lift_col r m))

/-- A row maximum of a [256, 128] block: the fold of `max` from the word of −∞. -/
theorem rowMax_apply (src : FVec Ideal S256x128 .f32) (hφ : FKind.Formats .f32)
    (hacc : (0xFF800000#32 : BitVec 32) = 0xFF800000#32) (r : Fin 256) :
    multiReduction .maximumf [1] S256 src 0xFF800000#32 reduces_S256x128_S256 hφ hacc (ix1 r)
      = (Finset.univ : Finset (Fin 128)).fold max (Ideal.ofBits .f32 negInfWord) fun m => src (ix2 r m) :=
  (Ideal.multiReduction_maximumf_single src _ reduces_S256x128_S256 hφ hacc (ix1 r)).trans
    (congrArg ((Finset.univ : Finset (Fin 128)).fold max (Ideal.ofBits .f32 negInfWord))
      (funext fun m => congrArg src (lift_col r m)))

section
variable (X0 : Vec Ideal S1x256x768 .f32) (X1 : Vec Ideal S1x128x768 .f32)
  (X2 : Vec Ideal S768x768 .bf16) (X3 : Vec Ideal S768 .f32) (X4 : Vec Ideal S768x768 .bf16) (X5 : Vec Ideal S768 .f32)
  (X6 : Vec Ideal S768x768 .bf16) (X7 : Vec Ideal S768 .f32) (X8 X9 : Vec Ideal S768x768 .bf16) (X10 : Vec Ideal S768 .f32)

/-- The NAMED scale of the scores, as the idealized kernel carries it. -/
abbrev scaleB : EReal := Named.named (F := Ideal) κ "inv_sqrt_h" (φ := .f32) 0x3D13CD3A#32

def qB (r : Fin 256) (o : Fin 768) : EReal := (∑ j : Fin 768, X0 (ix3 (0 : Fin 1) r j) * X2 (ix2 j o)) + X3 (ix1 o)
def kB (m : Fin 128) (o : Fin 768) : EReal := (∑ j : Fin 768, X1 (ix3 (0 : Fin 1) m j) * X4 (ix2 j o)) + X5 (ix1 o)
def vB (m : Fin 128) (o : Fin 768) : EReal := (∑ j : Fin 768, X1 (ix3 (0 : Fin 1) m j) * X6 (ix2 j o)) + X7 (ix1 o)
def zB (r : Fin 256) (m : Fin 128) : EReal := (∑ h : Fin 768, qB X0 X2 X3 r h * kB X1 X4 X5 m h) * scaleB
def mxB (r : Fin 256) : EReal :=
  max (Ideal.ofBits .f32 negInfWord)
    ((Finset.univ : Finset (Fin 128)).fold max (Ideal.ofBits .f32 negInfWord) fun m => zB X0 X1 X2 X3 X4 X5 r m)
def eB (r : Fin 256) (m : Fin 128) : EReal := Ideal.exp (zB X0 X1 X2 X3 X4 X5 r m - mxB X0 X1 X2 X3 X4 X5 r)
def pB (r : Fin 256) (m : Fin 128) : EReal :=
  Ideal.div (eB X0 X1 X2 X3 X4 X5 r m) (∑ m' : Fin 128, eB X0 X1 X2 X3 X4 X5 r m')
def cB (r : Fin 256) (o : Fin 768) : EReal := ∑ m : Fin 128, pB X0 X1 X2 X3 X4 X5 r m * vB X1 X6 X7 m o

/-- The queries' rows (before the change of format), at (r, h). -/
theorem qrows_apply (r : Fin 256) (h : Fin 768) :
    addf (matmul dot_S256x768_S768x768_S256x768_1_0_0_1_n_n none (k0_pay3 (F := Ideal) X0)
        (shapeCast S768x768 X2 shapeCasts_S768x768_S768x768 : FVec Ideal S768x768 .bf16) (constant S256x768 .f32 0x00000000#32))
      (broadcastTo S256x768 (shapeCast S1x768 X3 shapeCasts_S768_S1x768 : FVec Ideal S1x768 .f32) broadcasts_S1x768_S256x768) (ix2 r h)
      = qB X0 X2 X3 r h := by
  simp only [k0_pay3, k0_pay2, addf_apply, mm_256_768_768, truncf_apply, broadcastTo_1b_ab_apply, shapeCast_a_1a_apply,
    shapeCast_self, shapeCast_1ab_ab_apply]
  rfl

/-- The keys' rows (before the change of format and the transpose), at (m, h). -/
theorem krows_apply (m : Fin 128) (h : Fin 768) :
    addf (matmul dot_S128x768_S768x768_S128x768_1_0_0_1_n_n none (k0_pay4 (F := Ideal) X1)
        (shapeCast S768x768 X4 shapeCasts_S768x768_S768x768 : FVec Ideal S768x768 .bf16) (constant S128x768 .f32 0x00000000#32))
      (broadcastTo S128x768 (shapeCast S1x768 (shapeCast S768 X5 shapeCasts_S768_S768 : FVec Ideal S768 .f32) shapeCasts_S768_S1x768 : FVec Ideal S1x768 .f32)
        broadcasts_S1x768_S128x768) (ix2 m h)
      = kB X1 X4 X5 m h := by
  simp only [k0_pay4, addf_apply, mm_128_768_768, truncf_apply, broadcastTo_1b_ab_apply, shapeCast_a_1a_apply,
    shapeCast_self, shapeCast_1ab_ab_apply]
  rfl

/-- The scaled scores, at (r, m): a query row against a key row — the key block enters transposed —, times the scale. -/
theorem scores_apply (r : Fin 256) (m : Fin 128) :
    k0_pay6 (F := Ideal) X0 X1 X2 X3 X4 X5 (ix2 r m) = zB X0 X1 X2 X3 X4 X5 r m := by
  unfold k0_pay6
  rw [mulf_apply, mm_256_768_128, broadcast_apply]
  refine congrArg (· * scaleB) (Finset.sum_congr rfl fun h _ => ?_)
  refine congrArg₂ (· * ·) ?_ ?_
  · exact qrows_apply X0 X2 X3 r h
  · exact (keysT_apply _ h m).trans (krows_apply X1 X4 X5 m h)

/-- The values, at (m, o). -/
theorem values_apply (m : Fin 128) (o : Fin 768) :
    k0_pay5 (F := Ideal) X1 X6 X7 (ix2 m o) = vB X1 X6 X7 m o := by
  simp only [k0_pay5, k0_pay4, addf_apply, mm_128_768_768, truncf_apply, broadcastTo_1b_ab_apply, shapeCast_a_1a_apply,
    shapeCast_self, shapeCast_1ab_ab_apply]
  rfl

/-- The row maxima before the second `max` against −∞, at r. -/
theorem maxima_apply (r : Fin 256) :
    k0_pay7 (F := Ideal) X0 X1 X2 X3 X4 X5 (ix1 r)
      = (Finset.univ : Finset (Fin 128)).fold max (Ideal.ofBits .f32 negInfWord) fun m => zB X0 X1 X2 X3 X4 X5 r m := by
  unfold k0_pay7
  refine (rowMax_apply _ _ _ r).trans ?_
  exact congrArg (fun f : Fin 128 → EReal => (Finset.univ : Finset (Fin 128)).fold max (Ideal.ofBits .f32 negInfWord) f)
    (funext fun m => scores_apply X0 X1 X2 X3 X4 X5 r m)

/-- The body's result with the softmax denominator left as a parameter `S`: what remains once everything but the
    row sum has been read at its index. -/
def blendWith (r : Fin 256) (o : Fin 768) (S : EReal) : EReal :=
  blend (((∑ j : Fin 768, X0 (ix3 (0 : Fin 1) r j) * X8 (ix2 j o))
        + (∑ j : Fin 768, (∑ m : Fin 128,
            Ideal.div (Ideal.exp (zB X0 X1 X2 X3 X4 X5 r m - mxB X0 X1 X2 X3 X4 X5 r)) S * vB X1 X6 X7 m j) * X9 (ix2 j o))) + X10 (ix1 o))
    (X0 (ix3 (0 : Fin 1) r o))
    (∑ m : Fin 128, Ideal.div (Ideal.exp (zB X0 X1 X2 X3 X4 X5 r m - mxB X0 X1 X2 X3 X4 X5 r)) S * vB X1 X6 X7 m o)

/-- With the denominator the row's sum of exponentials, that is the blend of the specification's block form. -/
theorem blendWith_rowSum (r : Fin 256) (o : Fin 768) :
    blendWith X0 X1 X2 X3 X4 X5 X6 X7 X8 X9 X10 r o (∑ m' : Fin 128, eB X0 X1 X2 X3 X4 X5 r m')
      = blend (((∑ j : Fin 768, X0 (ix3 (0 : Fin 1) r j) * X8 (ix2 j o))
            + (∑ j : Fin 768, cB X0 X1 X2 X3 X4 X5 X6 X7 r j * X9 (ix2 j o))) + X10 (ix1 o))
          (X0 (ix3 (0 : Fin 1) r o)) (cB X0 X1 X2 X3 X4 X5 X6 X7 r o) := rfl

/-- The first body's one store, at (u, r, o): row r of X0 blended with row r of the context. -/
theorem gate1_body_apply (u : Fin 1) (r : Fin 256) (o : Fin 768) :
    k0_pay1 (F := Ideal) (k0_pay2 X0) (k0_pay3 X0) (k0_pay5 X1 X6 X7) (k0_pay6 X0 X1 X2 X3 X4 X5)
        (k0_pay7 X0 X1 X2 X3 X4 X5) (k0_pay8 (F := Ideal)) X8 X9 X10 (ix3 u r o)
      = blend (((∑ j : Fin 768, X0 (ix3 (0 : Fin 1) r j) * X8 (ix2 j o))
            + (∑ j : Fin 768, cB X0 X1 X2 X3 X4 X5 X6 X7 r j * X9 (ix2 j o))) + X10 (ix1 o))
          (X0 (ix3 (0 : Fin 1) r o)) (cB X0 X1 X2 X3 X4 X5 X6 X7 r o) := by
  simp only [k0_pay1, shapeCast_ab_1ab_apply, addf_apply, mulf_apply, subf_apply, divf_apply, maximumf_apply,
    broadcast_apply, logistic_apply, exp_apply, mm_256_768_768, mm_256_128_768, truncf_apply, broadcastTo_1b_ab_apply,
    shapeCast_a_1a_apply, shapeCast_self, broadcastTo_a1_ab_apply, shapeCast_a_a1_apply,
    scores_apply, values_apply, maxima_apply, k0_pay2, k0_pay3, k0_pay8, shapeCast_1ab_ab_apply]
  -- what is left unread is the row sum, in the three places the denominator stands
  refine (congrArg (blendWith X0 X1 X2 X3 X4 X5 X6 X7 X8 X9 X10 r o) (rowSum_apply _ _ _ r)).trans ?_
  simp only [exp_apply, subf_apply, broadcastTo_a1_ab_apply, shapeCast_a_a1_apply, maximumf_apply, broadcast_apply,
    scores_apply, maxima_apply, k0_pay8]
  exact blendWith_rowSum X0 X1 X2 X3 X4 X5 X6 X7 X8 X9 X10 r o

end

end Cert.KernelIdeal.BodyValue

end
-- ==== Proof.Consts.lean ====
/-
  The one float constant of the two programs whose value matters to the proof, as the extended real its 32-bit pattern
  denotes: the divisor of the scores, 27.712812423706055 = 14529495 / 524288 exactly (sign 0, exponent 2^4, significand
  14529495 / 2^23). The kernel's named scale is the reciprocal of this rational, so that multiplying by the one is
  dividing by the other.
-/
import proofs.«165018_j42296837931312_1_alg».proof.Proof.Spec

noncomputable section

namespace Cert.GatedAttention

open Idealize.ShloMosaic

/-- The divisor's word denotes the rational 14529495 / 524288. -/
theorem ofBits_scaleWord : Ideal.ofBits .f32 scaleWord = ((14529495 / 524288 : ℝ) : EReal) := by
  show Ideal.ofBits .f32 0x41DDB3D7#32 = _
  simp [Ideal.ofBits, Ideal.ieee, -EReal.coe_mul, Nat.shiftRight_eq_div_pow]; norm_num

/-- Dividing by the divisor is multiplying by its reciprocal 524288 / 14529495, on every extended real. -/
theorem div_scaleWord (a : EReal) :
    Ideal.div a (Ideal.ofBits .f32 scaleWord) = a * ((524288 / 14529495 : ℝ) : EReal) := by
  rw [ofBits_scaleWord, Ideal.div_coe (by norm_num : (14529495 / 524288 : ℝ) ≠ 0)]
  norm_num

end Cert.GatedAttention

end
-- ==== Proof.Region1Array.lean ====
/-
  From the second call's blocks to its whole result array.

  The call runs on a grid of 8 × 4 points; point (b, q) reads rows 64·q … 64·q + 63 of batch b of the first blend, the
  whole of batch b of s, the two prepared halves of the second gate's weight and its bias, and writes the
  [1, 64, 32, 768] block of the result at batch b, rows 64·q …. Every entry of the result array lies in exactly the
  block of the point (b, l / 64); so once each point is known to write the specification's block, the array after the
  call is the specification's.
-/
import proofs.«165018_j42296837931312_1_alg».proof.Proof.Body1Value
import proofs.«165018_j42296837931312_1_alg».proof.Proof.Gen.KernelIdeal.Frame
import Idealize.ShloMosaic.Lib.Pipeline.Value

set_option maxRecDepth 16384

noncomputable section

open scoped BigOperators

namespace Cert.KernelIdeal.ArrayValue

open Cert.KernelIdeal Cert.KernelIdeal.Gen Cert.GatedAttention
open Idealize.ShloMosaic Idealize.ShloMosaic.ValueIdx Idealize.ShloMosaic.TcCoe Idealize.SL.Sem Cert.KernelIdeal.BodyValue
open Idealize.ShloMosaic.Pipeline (Dat)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The printed index maps of the second call, decided over its 32 points: the piece of the first blend moves with
    the output block on the batch and row axes; s moves with it on the batch axis only; the weights and the bias stay. -/
theorem idx_facts1 : ∀ t : Fin cfg1.N,
    win1_0.index t (0 : Fin 3) = win1_5.index t (0 : Fin 4) ∧ win1_0.index t (1 : Fin 3) = win1_5.index t (1 : Fin 4)
    ∧ win1_0.index t (2 : Fin 3) = 0
    ∧ win1_1.index t (0 : Fin 3) = win1_5.index t (0 : Fin 4) ∧ win1_1.index t (1 : Fin 3) = 0 ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (2 : Fin 4) = 0 ∧ win1_5.index t (3 : Fin 4) = 0
    ∧ win1_5.index t (0 : Fin 4) ≤ 7 ∧ win1_5.index t (1 : Fin 4) ≤ 3 :=
  (by decide +kernel : ∀ t : Fin grid1.N, _)

/-- Every (batch, row tile) is some point's. -/
theorem idx_onto1 : ∀ (q0 : Fin 8) (q1 : Fin 4), ∃ t : Fin cfg1.N, win1_5.index t = ![q0.val, q1.val, 0, 0] :=
  (by decide +kernel : ∀ (q0 : Fin 8) (q1 : Fin 4), ∃ t : Fin grid1.N, win1_5.index t = ![q0.val, q1.val, 0, 0])

/-- An index of the result array is in point `t`'s block iff each coordinate is in the block's range on its axis. -/
theorem mem_blk1 (t : Fin cfg1.N) (i : S8x256x32x768.Idx) :
    i ∈ ((cfg1.win 5).blk t).view.set ↔ ∀ a : Fin 4, win1_5.index t a * S1x64x32x768.size a ≤ (i a).val
      ∧ (i a).val < win1_5.index t a * S1x64x32x768.size a + S1x64x32x768.size a := by
  show i ∈ ((View.whole main_v23).slice (win1_5.rect t)).set ↔ _
  rw [View.set_slice_whole, Rect.mem_set_unit]
  exact Iff.rfl

/-- Every index of the result array is in some point's block: batch `i 0`, row tile `i 1 / 64`. -/
theorem cover1 (i : S8x256x32x768.Idx) :
    ∃ t : Fin cfg1.N, (cfg1.win 5).flush t = true ∧ i ∈ ((cfg1.win 5).blk t).view.set := by
  have h0 : (i 0).val < 8 := (i 0).isLt
  have h1 : (i 1).val < 256 := (i 1).isLt
  have h2 : (i 2).val < 32 := (i 2).isLt
  have h3 : (i 3).val < 768 := (i 3).isLt
  obtain ⟨t, ht⟩ := idx_onto1 ⟨(i 0).val, h0⟩ ⟨(i 1).val / 64, by omega⟩
  have q0 : win1_5.index t (0 : Fin 4) = (i 0).val := congrFun ht 0
  have q1 : win1_5.index t (1 : Fin 4) = (i 1).val / 64 := congrFun ht 1
  have q2 : win1_5.index t (2 : Fin 4) = 0 := congrFun ht 2
  have q3 : win1_5.index t (3 : Fin 4) = 0 := congrFun ht 3
  refine ⟨t, flush1_5 t, ?_⟩
  rw [mem_blk1]
  intro a
  match a with
  | ⟨0, _⟩ => show win1_5.index t (0 : Fin 4) * 1 ≤ (i 0).val ∧ (i 0).val < win1_5.index t (0 : Fin 4) * 1 + 1; omega
  | ⟨1, _⟩ => show win1_5.index t (1 : Fin 4) * 64 ≤ (i 1).val ∧ (i 1).val < win1_5.index t (1 : Fin 4) * 64 + 64; omega
  | ⟨2, _⟩ => show win1_5.index t (2 : Fin 4) * 32 ≤ (i 2).val ∧ (i 2).val < win1_5.index t (2 : Fin 4) * 32 + 32; omega
  | ⟨3, _⟩ => show win1_5.index t (3 : Fin 4) * 768 ≤ (i 3).val ∧ (i 3).val < win1_5.index t (3 : Fin 4) * 768 + 768; omega

section
variable (V : (c : Dev nD) → (b : Ref sig .tc) → Buf (Elt Ideal) ((c : Thread nD τ).loc b)) (c : Dev nD)
variable (x : FVec Ideal ⟨3, ![8, 256, 768]⟩ .f32) (s : FVec Ideal ⟨3, ![8, 32, 768]⟩ .f32)
    (g : FVec Ideal ⟨3, ![8, 128, 768]⟩ .f32) (Wq : FVec Ideal ⟨2, ![768, 768]⟩ .f32) (bq : FVec Ideal ⟨1, ![768]⟩ .f32)
    (Wkv : FVec Ideal ⟨2, ![1536, 768]⟩ .f32) (bkv : FVec Ideal ⟨1, ![1536]⟩ .f32)
    (Wg1 : FVec Ideal ⟨2, ![768, 1536]⟩ .f32) (bg1 : FVec Ideal ⟨1, ![768]⟩ .f32)
    (Wg2 : FVec Ideal ⟨2, ![768, 1536]⟩ .f32) (bg2 : FVec Ideal ⟨1, ![768]⟩ .f32)

/-- WHAT POINT `t` WRITES BACK is block `t` of the specification's result, when the call finds the first blend, s,
    the second gate's prepared halves and its bias in its operands. -/
theorem flushed1_eq
    (hf : @Eq (S8x256x768.Idx → EReal) (V c main_v22) (fusedArr x g Wq bq Wkv bkv Wg1 bg1))
    (hs : @Eq (S8x32x768.Idx → EReal) (V c main_arg1) s)
    (hwx : ∀ j o : Fin 768, V c main_v19 (ix2 j o) = Wg2 (ix2 o (lo j)))
    (hwy : ∀ j o : Fin 768, V c main_v21 (ix2 j o) = Wg2 (ix2 o (hi j)))
    (hb : @Eq (S768.Idx → EReal) (V c main_arg10) bg2) (t : Fin cfg1.N) :
    (dat1 V c).flushed 5 t = ((cfg1.win 5).blk t).view.read (Elt Ideal) (resultArr x s g Wq bq Wkv bkv Wg1 bg1 Wg2 bg2) := by
  show (cfg1.win 5).cut (grid1.coords t) ((dat1 V c).after 5 t) = _
  rw [after1_5]
  unfold out1_5
  rw [View.canon_unit_zero hz4]
  simp only [View.ld_unit_zero (S := S1x64x768) hz3, View.ld_unit_zero (S := S1x32x768) hz3,
    View.ld_unit_zero (S := S768x768) hz2, View.ld_unit_zero (S := S768) hz1]
  obtain ⟨e00, e01, e02, e10, e11, e12, e20, e21, e30, e31, e40, e52, e53, b0, b1⟩ := idx_facts1 t
  funext y
  obtain ⟨u, r, k, o, rfl⟩ : ∃ (u : Fin 1) (r : Fin 64) (k : Fin 32) (o : Fin 768), y = ix4 u r k o :=
    ⟨y 0, y 1, y 2, y 3, eq_ix4 y⟩
  have hu : u.val = 0 := by omega
  -- where the output block's entry (u, r, k, o) lies in the result array: batch B, row L
  let B : Fin 8 := ⟨win1_5.index t (0 : Fin 4), by omega⟩
  let L : Fin 256 := ⟨win1_5.index t (1 : Fin 4) * 64 + r.val, by have := r.isLt; omega⟩
  have e5 : ((cfg1.win 5).blk t).view.emb (ix4 u r k o) = (ix4 B L k o : S8x256x32x768.Idx) := by
    funext a; apply Fin.ext
    match a with
    | ⟨0, _⟩ => show win1_5.index t (0 : Fin 4) * 1 + 1 * u.val = win1_5.index t (0 : Fin 4); omega
    | ⟨1, _⟩ => show win1_5.index t (1 : Fin 4) * 64 + 1 * r.val = win1_5.index t (1 : Fin 4) * 64 + r.val; omega
    | ⟨2, _⟩ => show win1_5.index t (2 : Fin 4) * 32 + 1 * k.val = k.val; omega
    | ⟨3, _⟩ => show win1_5.index t (3 : Fin 4) * 768 + 1 * o.val = o.val; omega
  have e0 : ∀ (r' : Fin 64) (j : Fin 768), ((cfg1.win 0).blk t).view.emb (ix3 (0 : Fin 1) r' j)
      = (ix3 B ⟨win1_5.index t (1 : Fin 4) * 64 + r'.val, by have := r'.isLt; omega⟩ j : S8x256x768.Idx) := by
    intro r' j; funext a; apply Fin.ext
    match a with
    | ⟨0, _⟩ => show win1_0.index t (0 : Fin 3) * 1 + 1 * 0 = win1_5.index t (0 : Fin 4); omega
    | ⟨1, _⟩ => show win1_0.index t (1 : Fin 3) * 64 + 1 * r'.val = win1_5.index t (1 : Fin 4) * 64 + r'.val; omega
    | ⟨2, _⟩ => show win1_0.index t (2 : Fin 3) * 768 + 1 * j.val = j.val; omega
  have e1 : ∀ (k' : Fin 32) (j : Fin 768), ((cfg1.win 1).blk t).view.emb (ix3 (0 : Fin 1) k' j)
      = (ix3 B k' j : S8x32x768.Idx) := by
    intro k' j; funext a; apply Fin.ext
    match a with
    | ⟨0, _⟩ => show win1_1.index t (0 : Fin 3) * 1 + 1 * 0 = win1_5.index t (0 : Fin 4); omega
    | ⟨1, _⟩ => show win1_1.index t (1 : Fin 3) * 32 + 1 * k'.val = k'.val; omega
    | ⟨2, _⟩ => show win1_1.index t (2 : Fin 3) * 768 + 1 * j.val = j.val; omega
  have e2 : ∀ (j o' : Fin 768), ((cfg1.win 2).blk t).view.emb (ix2 j o') = (ix2 j o' : S768x768.Idx) := by
    intro j o'; funext a; apply Fin.ext
    match a with
    | ⟨0, _⟩ => show win1_2.index t (0 : Fin 2) * 768 + 1 * j.val = j.val; omega
    | ⟨1, _⟩ => show win1_2.index t (1 : Fin 2) * 768 + 1 * o'.val = o'.val; omega
  have e3 : ∀ (j o' : Fin 768), ((cfg1.win 3).blk t).view.emb (ix2 j o') = (ix2 j o' : S768x768.Idx) := by
    intro j o'; funext a; apply Fin.ext
    match a with
    | ⟨0, _⟩ => show win1_3.index t (0 : Fin 2) * 768 + 1 * j.val = j.val; omega
    | ⟨1, _⟩ => show win1_3.index t (1 : Fin 2) * 768 + 1 * o'.val = o'.val; omega
  have e4 : ∀ (o' : Fin 768), ((cfg1.win 4).blk t).view.emb (ix1 o') = (ix1 o' : S768.Idx) := by
    intro o'; funext a; apply Fin.ext
    match a with
    | ⟨0, _⟩ => show win1_4.index t (0 : Fin 1) * 768 + 1 * o'.val = o'.val; omega
  -- each block read where it lies in its array
  have r0 : ∀ (r' : Fin 64) (j : Fin 768), (iblk1 V c 0 t (ix3 (0 : Fin 1) r' j) : EReal)
      = fused x g Wq bq Wkv bkv Wg1 bg1 B ⟨win1_5.index t (1 : Fin 4) * 64 + r'.val, by have := r'.isLt; omega⟩ j := by
    intro r' j
    show (V c main_v22 (((cfg1.win 0).blk t).view.emb (ix3 (0 : Fin 1) r' j)) : EReal) = _
    rw [e0, hf]; rfl
  have r1 : ∀ (k' : Fin 32) (j : Fin 768), (iblk1 V c 1 t (ix3 (0 : Fin 1) k' j) : EReal) = s (ix3 B k' j) := by
    intro k' j
    show (V c main_arg1 (((cfg1.win 1).blk t).view.emb (ix3 (0 : Fin 1) k' j)) : EReal) = _
    rw [e1, hs]
  have r2 : ∀ (j o' : Fin 768), (iblk1 V c 2 t (ix2 j o') : EReal) = Wg2 (ix2 o' (lo j)) := by
    intro j o'
    show (V c main_v19 (((cfg1.win 2).blk t).view.emb (ix2 j o')) : EReal) = _
    rw [e2, hwx]
  have r3 : ∀ (j o' : Fin 768), (iblk1 V c 3 t (ix2 j o') : EReal) = Wg2 (ix2 o' (hi j)) := by
    intro j o'
    show (V c main_v21 (((cfg1.win 3).blk t).view.emb (ix2 j o')) : EReal) = _
    rw [e3, hwy]
  have r4 : ∀ (o' : Fin 768), (iblk1 V c 4 t (ix1 o') : EReal) = bg2 (ix1 o') := by
    intro o'
    show (V c main_arg10 (((cfg1.win 4).blk t).view.emb (ix1 o')) : EReal) = _
    rw [e4, hb]
  -- the body's entry is the blend of those reads; the specification's entry at (B, L, k, o) is the same blend
  refine (gate2_body_apply (iblk1 V c 0 t) (iblk1 V c 1 t) (iblk1 V c 2 t) (iblk1 V c 3 t) (iblk1 V c 4 t) u r k o).trans ?_
  simp only [r0, r1, r2, r3, r4]
  show _ = resultArr x s g Wq bq Wkv bkv Wg1 bg1 Wg2 bg2 (((cfg1.win 5).blk t).view.emb (ix4 u r k o))
  rw [e5]
  rfl

/-- THE RESULT ARRAY after the second call is the specification's. -/
theorem region1_array
    (hf : @Eq (S8x256x768.Idx → EReal) (V c main_v22) (fusedArr x g Wq bq Wkv bkv Wg1 bg1))
    (hs : @Eq (S8x32x768.Idx → EReal) (V c main_arg1) s)
    (hwx : ∀ j o : Fin 768, V c main_v19 (ix2 j o) = Wg2 (ix2 o (lo j)))
    (hwy : ∀ j o : Fin 768, V c main_v21 (ix2 j o) = Wg2 (ix2 o (hi j)))
    (hb : @Eq (S768.Idx → EReal) (V c main_arg10) bg2) :
    (dat1 V c).arrAt 5 cfg1.N = resultArr x s g Wq bq Wkv bkv Wg1 bg1 Wg2 bg2 :=
  (dat1 V c).arrAt_eq_of_cover 5 (resultArr x s g Wq bq Wkv bkv Wg1 bg1 Wg2 bg2)
    (fun t _ => flushed1_eq V c x s g Wq bq Wkv bkv Wg1 bg1 Wg2 bg2 hf hs hwx hwy hb t) cover1

end

end Cert.KernelIdeal.ArrayValue

end
-- ==== Proof.Region0Array.lean ====
/-
  From the first call's blocks to the whole array of the first blend.

  The call runs on 8 points, one per batch; point b reads batch b of x and of g, every prepared weight and bias whole,
  and writes batch b of the first blend. Read through its windows, the body's block form is the specification's at
  batch b: queries, keys and values are the specification's because a prepared weight's entry (j, o) is the argument's
  entry (o, j) (in the right half of a stacked argument); the score is the specification's because multiplying by the
  named scale 524288 / 14529495 is dividing by the divisor 14529495 / 524288; everything after the score is the same
  function of it on both sides.
-/
import proofs.«165018_j42296837931312_1_alg».proof.Proof.Body0Value
import proofs.«165018_j42296837931312_1_alg».proof.Proof.Consts
import proofs.«165018_j42296837931312_1_alg».proof.Proof.Region1Array
import Idealize.ShloMosaic.PureOps.IdealRules

set_option maxRecDepth 16384

noncomputable section

open scoped BigOperators

namespace Cert.KernelIdeal.ArrayValue

open Cert.KernelIdeal Cert.KernelIdeal.Gen Cert.GatedAttention
open Idealize.ShloMosaic Idealize.ShloMosaic.ValueIdx Idealize.ShloMosaic.TcCoe Idealize.SL.Sem Cert.KernelIdeal.BodyValue
open Idealize.ShloMosaic.Pipeline (Dat)

/-- The named scale of the scores denotes the rational 524288 / 14529495, by the certificate's table. -/
theorem named_scale : (scaleB : EReal) = ((524288 / 14529495 : ℝ) : EReal) :=
  IdealRules.named_const.ideal_named_scalar _ _ _ _ rfl

/-- The printed index maps of the first call, decided over its 8 points: x, g and the output move with the batch; every
    weight and bias stays. -/
theorem idx_facts0 : ∀ t : Fin cfg0.N,
    win0_0.index t (0 : Fin 3) = win0_11.index t (0 : Fin 3)
    ∧ win0_0.index t (1 : Fin 3) = 0
    ∧ win0_0.index t (2 : Fin 3) = 0
    ∧ win0_1.index t (0 : Fin 3) = win0_11.index t (0 : Fin 3)
    ∧ win0_1.index t (1 : Fin 3) = 0
    ∧ win0_1.index t (2 : Fin 3) = 0
    ∧ win0_2.index t (0 : Fin 2) = 0
    ∧ win0_2.index t (1 : Fin 2) = 0
    ∧ win0_3.index t (0 : Fin 1) = 0
    ∧ win0_4.index t (0 : Fin 2) = 0
    ∧ win0_4.index t (1 : Fin 2) = 0
    ∧ win0_5.index t (0 : Fin 1) = 0
    ∧ win0_6.index t (0 : Fin 2) = 0
    ∧ win0_6.index t (1 : Fin 2) = 0
    ∧ win0_7.index t (0 : Fin 1) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 1) = 0
    ∧ win0_11.index t (1 : Fin 3) = 0
    ∧ win0_11.index t (2 : Fin 3) = 0
    ∧ win0_11.index t (0 : Fin 3) ≤ 7 :=
  (by decide +kernel : ∀ t : Fin grid0.N, _)

/-- Every batch is some point's. -/
theorem idx_onto0 : ∀ (q0 : Fin 8), ∃ t : Fin cfg0.N, win0_11.index t = ![q0.val, 0, 0] :=
  (by decide +kernel : ∀ (q0 : Fin 8), ∃ t : Fin grid0.N, win0_11.index t = ![q0.val, 0, 0])

/-- An index of the first blend's array is in point `t`'s block iff each coordinate is in the block's range. -/
theorem mem_blk0 (t : Fin cfg0.N) (i : S8x256x768.Idx) :
    i ∈ ((cfg0.win 11).blk t).view.set ↔ ∀ a : Fin 3, win0_11.index t a * S1x256x768.size a ≤ (i a).val
      ∧ (i a).val < win0_11.index t a * S1x256x768.size a + S1x256x768.size a := by
  show i ∈ ((View.whole main_v22).slice (win0_11.rect t)).set ↔ _
  rw [View.set_slice_whole, Rect.mem_set_unit]
  exact Iff.rfl

/-- Every index of the array is in some point's block: its batch's. -/
theorem cover0 (i : S8x256x768.Idx) :
    ∃ t : Fin cfg0.N, (cfg0.win 11).flush t = true ∧ i ∈ ((cfg0.win 11).blk t).view.set := by
  have h0 : (i 0).val < 8 := (i 0).isLt
  have h1 : (i 1).val < 256 := (i 1).isLt
  have h2 : (i 2).val < 768 := (i 2).isLt
  obtain ⟨t, ht⟩ := idx_onto0 ⟨(i 0).val, h0⟩
  have q0 : win0_11.index t (0 : Fin 3) = (i 0).val := congrFun ht 0
  have q1 : win0_11.index t (1 : Fin 3) = 0 := congrFun ht 1
  have q2 : win0_11.index t (2 : Fin 3) = 0 := congrFun ht 2
  refine ⟨t, flush0_11 t, ?_⟩
  rw [mem_blk0]
  intro a
  match a with
  | ⟨0, _⟩ => show win0_11.index t (0 : Fin 3) * 1 ≤ (i 0).val ∧ (i 0).val < win0_11.index t (0 : Fin 3) * 1 + 1; omega
  | ⟨1, _⟩ => show win0_11.index t (1 : Fin 3) * 256 ≤ (i 1).val ∧ (i 1).val < win0_11.index t (1 : Fin 3) * 256 + 256; omega
  | ⟨2, _⟩ => show win0_11.index t (2 : Fin 3) * 768 ≤ (i 2).val ∧ (i 2).val < win0_11.index t (2 : Fin 3) * 768 + 768; omega

section
variable (V : (c : Dev nD) → (b : Ref sig .tc) → Buf (Elt Ideal) ((c : Thread nD τ).loc b)) (c : Dev nD)
variable (x : FVec Ideal ⟨3, ![8, 256, 768]⟩ .f32) (s : FVec Ideal ⟨3, ![8, 32, 768]⟩ .f32)
    (g : FVec Ideal ⟨3, ![8, 128, 768]⟩ .f32) (Wq : FVec Ideal ⟨2, ![768, 768]⟩ .f32) (bq : FVec Ideal ⟨1, ![768]⟩ .f32)
    (Wkv : FVec Ideal ⟨2, ![1536, 768]⟩ .f32) (bkv : FVec Ideal ⟨1, ![1536]⟩ .f32)
    (Wg1 : FVec Ideal ⟨2, ![768, 1536]⟩ .f32) (bg1 : FVec Ideal ⟨1, ![768]⟩ .f32)
    (Wg2 : FVec Ideal ⟨2, ![768, 1536]⟩ .f32) (bg2 : FVec Ideal ⟨1, ![768]⟩ .f32)

/-- WHAT POINT `t` WRITES BACK is block `t` of the specification's first blend, when the call finds x, g, the
    prepared weights and the biases in its operands. -/
theorem flushed0_eq
    (hx : @Eq (S8x256x768.Idx → EReal) (V c main_arg0) x) (hg : @Eq (S8x128x768.Idx → EReal) (V c main_arg2) g)
    (hwq : ∀ j o : Fin 768, V c main_v9 (ix2 j o) = Wq (ix2 o j)) (hbq : @Eq (S768.Idx → EReal) (V c main_arg4) bq)
    (hwk : ∀ j o : Fin 768, V c main_v11 (ix2 j o) = Wkv (ix2 (lo o) j))
    (hbk : ∀ o : Fin 768, V c main_v2 (ix1 o) = bkv (ix1 (lo o)))
    (hwv : ∀ j o : Fin 768, V c main_v13 (ix2 j o) = Wkv (ix2 (hi o) j))
    (hbv : ∀ o : Fin 768, V c main_v3 (ix1 o) = bkv (ix1 (hi o)))
    (hwx : ∀ j o : Fin 768, V c main_v15 (ix2 j o) = Wg1 (ix2 o (lo j)))
    (hwy : ∀ j o : Fin 768, V c main_v17 (ix2 j o) = Wg1 (ix2 o (hi j)))
    (hb1 : @Eq (S768.Idx → EReal) (V c main_arg8) bg1) (t : Fin cfg0.N) :
    (dat0 V c).flushed 11 t = ((cfg0.win 11).blk t).view.read (Elt Ideal) (fusedArr x g Wq bq Wkv bkv Wg1 bg1) := by
  show (cfg0.win 11).cut (grid0.coords t) ((dat0 V c).after 11 t) = _
  rw [after0_11]
  unfold out0_11
  rw [View.canon_unit_zero hz3]
  simp only [View.ld_unit_zero (S := S1x256x768) hz3, View.ld_unit_zero (S := S1x128x768) hz3,
    View.ld_unit_zero (S := S768x768) hz2, View.ld_unit_zero (S := S768) hz1]
  obtain ⟨f0_0, f0_1, f0_2, f1_0, f1_1, f1_2, f2_0, f2_1, f3_0, f4_0, f4_1, f5_0, f6_0, f6_1, f7_0, f8_0, f8_1, f9_0, f9_1, f10_0, f11_1, f11_2, fb⟩ := idx_facts0 t
  funext y
  obtain ⟨u, r, o, rfl⟩ : ∃ (u : Fin 1) (r : Fin 256) (o : Fin 768), y = ix3 u r o := ⟨y 0, y 1, y 2, eq_ix3 y⟩
  have hu : u.val = 0 := by omega
  let B : Fin 8 := ⟨win0_11.index t (0 : Fin 3), by omega⟩
  have e11 : ((cfg0.win 11).blk t).view.emb (ix3 u r o) = (ix3 B r o : S8x256x768.Idx) := by
    funext a; apply Fin.ext
    match a with
    | ⟨0, _⟩ => show win0_11.index t (0 : Fin 3) * 1 + 1 * u.val = win0_11.index t (0 : Fin 3); omega
    | ⟨1, _⟩ => show win0_11.index t (1 : Fin 3) * 256 + 1 * r.val = r.val; omega
    | ⟨2, _⟩ => show win0_11.index t (2 : Fin 3) * 768 + 1 * o.val = o.val; omega
  have e0 : ∀ (r' : Fin 256) (j : Fin 768), ((cfg0.win 0).blk t).view.emb (ix3 (0 : Fin 1) r' j)
      = (ix3 B r' j : S8x256x768.Idx) := by
    intro r' j; funext a; apply Fin.ext
    match a with
    | ⟨0, _⟩ => show win0_0.index t (0 : Fin 3) * 1 + 1 * 0 = win0_11.index t (0 : Fin 3); omega
    | ⟨1, _⟩ => show win0_0.index t (1 : Fin 3) * 256 + 1 * r'.val = r'.val; omega
    | ⟨2, _⟩ => show win0_0.index t (2 : Fin 3) * 768 + 1 * j.val = j.val; omega
  have r0 : ∀ (r' : Fin 256) (j : Fin 768), (iblk0 V c 0 t (ix3 (0 : Fin 1) r' j) : EReal) = x (ix3 B r' j) := by
    intro r' j
    show (V c main_arg0 (((cfg0.win 0).blk t).view.emb (ix3 (0 : Fin 1) r' j)) : EReal) = _
    rw [e0, hx]
  have e1 : ∀ (r' : Fin 128) (j : Fin 768), ((cfg0.win 1).blk t).view.emb (ix3 (0 : Fin 1) r' j)
      = (ix3 B r' j : S8x128x768.Idx) := by
    intro r' j; funext a; apply Fin.ext
    match a with
    | ⟨0, _⟩ => show win0_1.index t (0 : Fin 3) * 1 + 1 * 0 = win0_11.index t (0 : Fin 3); omega
    | ⟨1, _⟩ => show win0_1.index t (1 : Fin 3) * 128 + 1 * r'.val = r'.val; omega
    | ⟨2, _⟩ => show win0_1.index t (2 : Fin 3) * 768 + 1 * j.val = j.val; omega
  have r1 : ∀ (r' : Fin 128) (j : Fin 768), (iblk0 V c 1 t (ix3 (0 : Fin 1) r' j) : EReal) = g (ix3 B r' j) := by
    intro r' j
    show (V c main_arg2 (((cfg0.win 1).blk t).view.emb (ix3 (0 : Fin 1) r' j)) : EReal) = _
    rw [e1, hg]
  have e2 : ∀ (j o' : Fin 768), ((cfg0.win 2).blk t).view.emb (ix2 j o') = (ix2 j o' : S768x768.Idx) := by
    intro j o'; funext a; apply Fin.ext
    match a with
    | ⟨0, _⟩ => show win0_2.index t (0 : Fin 2) * 768 + 1 * j.val = j.val; omega
    | ⟨1, _⟩ => show win0_2.index t (1 : Fin 2) * 768 + 1 * o'.val = o'.val; omega
  have r2 : ∀ (j o' : Fin 768), (iblk0 V c 2 t (ix2 j o') : EReal) = Wq (ix2 o' j) := by
    intro j o'
    show (V c main_v9 (((cfg0.win 2).blk t).view.emb (ix2 j o')) : EReal) = _
    rw [e2, hwq]
  have e3 : ∀ (o' : Fin 768), ((cfg0.win 3).blk t).view.emb (ix1 o') = (ix1 o' : S768.Idx) := by
    intro o'; funext a; apply Fin.ext
    match a with
    | ⟨0, _⟩ => show win0_3.index t (0 : Fin 1) * 768 + 1 * o'.val = o'.val; omega
  have r3 : ∀ (o' : Fin 768), (iblk0 V c 3 t (ix1 o') : EReal) = bq (ix1 o') := by
    intro o'
    show (V c main_arg4 (((cfg0.win 3).blk t).view.emb (ix1 o')) : EReal) = _
    rw [e3, hbq]
  have e4 : ∀ (j o' : Fin 768), ((cfg0.win 4).blk t).view.emb (ix2 j o') = (ix2 j o' : S768x768.Idx) := by
    intro j o'; funext a; apply Fin.ext
    match a with
    | ⟨0, _⟩ => show win0_4.index t (0 : Fin 2) * 768 + 1 * j.val = j.val; omega
    | ⟨1, _⟩ => show win0_4.index t (1 : Fin 2) * 768 + 1 * o'.val = o'.val; omega
  have r4 : ∀ (j o' : Fin 768), (iblk0 V c 4 t (ix2 j o') : EReal) = Wkv (ix2 (lo o') j) := by
    intro j o'
    show (V c main_v11 (((cfg0.win 4).blk t).view.emb (ix2 j o')) : EReal) = _
    rw [e4, hwk]
  have e5 : ∀ (o' : Fin 768), ((cfg0.win 5).blk t).view.emb (ix1 o') = (ix1 o' : S768.Idx) := by
    intro o'; funext a; apply Fin.ext
    match a with
    | ⟨0, _⟩ => show win0_5.index t (0 : Fin 1) * 768 + 1 * o'.val = o'.val; omega
  have r5 : ∀ (o' : Fin 768), (iblk0 V c 5 t (ix1 o') : EReal) = bkv (ix1 (lo o')) := by
    intro o'
    show (V c main_v2 (((cfg0.win 5).blk t).view.emb (ix1 o')) : EReal) = _
    rw [e5, hbk]
  have e6 : ∀ (j o' : Fin 768), ((cfg0.win 6).blk t).view.emb (ix2 j o') = (ix2 j o' : S768x768.Idx) := by
    intro j o'; funext a; apply Fin.ext
    match a with
    | ⟨0, _⟩ => show win0_6.index t (0 : Fin 2) * 768 + 1 * j.val = j.val; omega
    | ⟨1, _⟩ => show win0_6.index t (1 : Fin 2) * 768 + 1 * o'.val = o'.val; omega
  have r6 : ∀ (j o' : Fin 768), (iblk0 V c 6 t (ix2 j o') : EReal) = Wkv (ix2 (hi o') j) := by
    intro j o'
    show (V c main_v13 (((cfg0.win 6).blk t).view.emb (ix2 j o')) : EReal) = _
    rw [e6, hwv]
  have e7 : ∀ (o' : Fin 768), ((cfg0.win 7).blk t).view.emb (ix1 o') = (ix1 o' : S768.Idx) := by
    intro o'; funext a; apply Fin.ext
    match a with
    | ⟨0, _⟩ => show win0_7.index t (0 : Fin 1) * 768 + 1 * o'.val = o'.val; omega
  have r7 : ∀ (o' : Fin 768), (iblk0 V c 7 t (ix1 o') : EReal) = bkv (ix1 (hi o')) := by
    intro o'
    show (V c main_v3 (((cfg0.win 7).blk t).view.emb (ix1 o')) : EReal) = _
    rw [e7, hbv]
  have e8 : ∀ (j o' : Fin 768), ((cfg0.win 8).blk t).view.emb (ix2 j o') = (ix2 j o' : S768x768.Idx) := by
    intro j o'; funext a; apply Fin.ext
    match a with
    | ⟨0, _⟩ => show win0_8.index t (0 : Fin 2) * 768 + 1 * j.val = j.val; omega
    | ⟨1, _⟩ => show win0_8.index t (1 : Fin 2) * 768 + 1 * o'.val = o'.val; omega
  have r8 : ∀ (j o' : Fin 768), (iblk0 V c 8 t (ix2 j o') : EReal) = Wg1 (ix2 o' (lo j)) := by
    intro j o'
    show (V c main_v15 (((cfg0.win 8).blk t).view.emb (ix2 j o')) : EReal) = _
    rw [e8, hwx]
  have e9 : ∀ (j o' : Fin 768), ((cfg0.win 9).blk t).view.emb (ix2 j o') = (ix2 j o' : S768x768.Idx) := by
    intro j o'; funext a; apply Fin.ext
    match a with
    | ⟨0, _⟩ => show win0_9.index t (0 : Fin 2) * 768 + 1 * j.val = j.val; omega
    | ⟨1, _⟩ => show win0_9.index t (1 : Fin 2) * 768 + 1 * o'.val = o'.val; omega
  have r9 : ∀ (j o' : Fin 768), (iblk0 V c 9 t (ix2 j o') : EReal) = Wg1 (ix2 o' (hi j)) := by
    intro j o'
    show (V c main_v17 (((cfg0.win 9).blk t).view.emb (ix2 j o')) : EReal) = _
    rw [e9, hwy]
  have e10 : ∀ (o' : Fin 768), ((cfg0.win 10).blk t).view.emb (ix1 o') = (ix1 o' : S768.Idx) := by
    intro o'; funext a; apply Fin.ext
    match a with
    | ⟨0, _⟩ => show win0_10.index t (0 : Fin 1) * 768 + 1 * o'.val = o'.val; omega
  have r10 : ∀ (o' : Fin 768), (iblk0 V c 10 t (ix1 o') : EReal) = bg1 (ix1 o') := by
    intro o'
    show (V c main_arg8 (((cfg0.win 10).blk t).view.emb (ix1 o')) : EReal) = _
    rw [e10, hb1]
  -- the body's block form, read through the windows, is the specification's at batch B
  have hq : ∀ (r' : Fin 256) (h : Fin 768), qB (iblk0 V c 0 t) (iblk0 V c 2 t) (iblk0 V c 3 t) r' h = query x Wq bq B r' h := by
    intro r' h; unfold qB query; simp only [r0, r2, r3]
  have hk : ∀ (m : Fin 128) (h : Fin 768), kB (iblk0 V c 1 t) (iblk0 V c 4 t) (iblk0 V c 5 t) m h = key g Wkv bkv B m h := by
    intro m h; unfold kB key; simp only [r1, r4, r5]
  have hv : ∀ (m : Fin 128) (o' : Fin 768), vB (iblk0 V c 1 t) (iblk0 V c 6 t) (iblk0 V c 7 t) m o' = value g Wkv bkv B m o' := by
    intro m o'; unfold vB value; simp only [r1, r6, r7]
  have hz : ∀ (r' : Fin 256) (m : Fin 128), zB (iblk0 V c 0 t) (iblk0 V c 1 t) (iblk0 V c 2 t) (iblk0 V c 3 t) (iblk0 V c 4 t) (iblk0 V c 5 t) r' m = score x g Wq bq Wkv bkv B r' m := by
    intro r' m; unfold zB score; simp only [hq, hk]; rw [named_scale, div_scaleWord]
  have hmx : ∀ (r' : Fin 256), mxB (iblk0 V c 0 t) (iblk0 V c 1 t) (iblk0 V c 2 t) (iblk0 V c 3 t) (iblk0 V c 4 t) (iblk0 V c 5 t) r' = rowMax x g Wq bq Wkv bkv B r' := by
    intro r'; unfold mxB rowMax; simp only [hz]
  have he : ∀ (r' : Fin 256) (m : Fin 128), eB (iblk0 V c 0 t) (iblk0 V c 1 t) (iblk0 V c 2 t) (iblk0 V c 3 t) (iblk0 V c 4 t) (iblk0 V c 5 t) r' m = expo x g Wq bq Wkv bkv B r' m := by
    intro r' m; unfold eB expo; rw [hz, hmx]
  have hp : ∀ (r' : Fin 256) (m : Fin 128), pB (iblk0 V c 0 t) (iblk0 V c 1 t) (iblk0 V c 2 t) (iblk0 V c 3 t) (iblk0 V c 4 t) (iblk0 V c 5 t) r' m = weight x g Wq bq Wkv bkv B r' m := by
    intro r' m; unfold pB weight; simp only [he]
  have hc : ∀ (r' : Fin 256) (o' : Fin 768), cB (iblk0 V c 0 t) (iblk0 V c 1 t) (iblk0 V c 2 t) (iblk0 V c 3 t) (iblk0 V c 4 t) (iblk0 V c 5 t) (iblk0 V c 6 t) (iblk0 V c 7 t) r' o' = context x g Wq bq Wkv bkv B r' o' := by
    intro r' o'; unfold cB context; simp only [hp, hv]
  refine (gate1_body_apply (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) u r o).trans ?_
  simp only [hc, r0, r8, r9, r10]
  show _ = fusedArr x g Wq bq Wkv bkv Wg1 bg1 (((cfg0.win 11).blk t).view.emb (ix3 u r o))
  rw [e11]
  rfl

/-- THE ARRAY OF THE FIRST BLEND after the first call is the specification's. -/
theorem region0_array
    (hx : @Eq (S8x256x768.Idx → EReal) (V c main_arg0) x) (hg : @Eq (S8x128x768.Idx → EReal) (V c main_arg2) g)
    (hwq : ∀ j o : Fin 768, V c main_v9 (ix2 j o) = Wq (ix2 o j)) (hbq : @Eq (S768.Idx → EReal) (V c main_arg4) bq)
    (hwk : ∀ j o : Fin 768, V c main_v11 (ix2 j o) = Wkv (ix2 (lo o) j))
    (hbk : ∀ o : Fin 768, V c main_v2 (ix1 o) = bkv (ix1 (lo o)))
    (hwv : ∀ j o : Fin 768, V c main_v13 (ix2 j o) = Wkv (ix2 (hi o) j))
    (hbv : ∀ o : Fin 768, V c main_v3 (ix1 o) = bkv (ix1 (hi o)))
    (hwx : ∀ j o : Fin 768, V c main_v15 (ix2 j o) = Wg1 (ix2 o (lo j)))
    (hwy : ∀ j o : Fin 768, V c main_v17 (ix2 j o) = Wg1 (ix2 o (hi j)))
    (hb1 : @Eq (S768.Idx → EReal) (V c main_arg8) bg1) :
    (dat0 V c).arrAt 11 cfg0.N = fusedArr x g Wq bq Wkv bkv Wg1 bg1 :=
  (dat0 V c).arrAt_eq_of_cover 11 (fusedArr x g Wq bq Wkv bkv Wg1 bg1)
    (fun t _ => flushed0_eq V c x g Wq bq Wkv bkv Wg1 bg1 hx hg hwq hbq hwk hbk hwv hbv hwx hwy hb1 t) cover0

end

end Cert.KernelIdeal.ArrayValue

end
-- ==== Proof.HostWeights.lean ====
/-
  What the host stretch leaves for the two calls, read at an index. Before the first call @main cuts the stacked
  weights into halves, transposes every weight matrix and changes its format (the identity on the extended reals); the
  biases' halves are cut the same way. So entry (j, o) of a prepared matrix is entry (o, j) of the argument it came from
  — with row o, or column j, taken in the first or in the second half of a 1536-long axis where the argument is stacked.
  The arguments themselves reach the first call as launched.
-/
import proofs.«165018_j42296837931312_1_alg».proof.Proof.Gen.KernelIdeal.Frame
import proofs.«165018_j42296837931312_1_alg».proof.Proof.Spec
import Idealize.ShloMosaic.Lib.StableHlo.Run
import Idealize.ShloMosaic.Lib.ValueLayout
import Idealize.ShloMosaic.Lib.ValueIdx

set_option maxRecDepth 16384

noncomputable section

open scoped BigOperators

namespace Cert.KernelIdeal.HostValue

open Cert.KernelIdeal Cert.KernelIdeal.Gen Cert.GatedAttention
open Idealize.ShloMosaic Idealize.ShloMosaic.ValueIdx Idealize.ShloMosaic.TcCoe Idealize.ShloMosaic.Tactic Idealize.SL.Sem Idealize.ShloMosaic.StableHlo

variable (m : (ℓ : Loc nD τ sig) → Buf (Elt Ideal) ℓ) (ρ : Dev nD → PrngReg) (c : Dev nD)

/-- The prepared matrix in main_v9, at (j, o). -/
theorem wq_at (j o : Fin 768) : V1 m ρ c main_v9 (ix2 j o) = m ((c : Thread nD τ).loc main_arg3) (ix2 o j) := by
  have e : @Eq (S768x768.Idx → EReal) (V1 m ρ c main_v9) (truncf (F := Ideal) .bf16 (transpose S768x768 [1, 0] (m ((c : Thread nD τ).loc main_arg3)) transposes_S768x768_S768x768_1_0) bitsLt_bf16_f32) := by
    show StableHlo.after hostOps0 (W0 m ρ c) (Proc.devRef .tc main_v9) = _
    after_results
  rw [e, truncf_apply, transpose_ix2_apply]

/-- The prepared matrix in main_v11, at (j, o). -/
theorem wk_at (j o : Fin 768) : V1 m ρ c main_v11 (ix2 j o) = m ((c : Thread nD τ).loc main_arg5) (ix2 (lo o) j) := by
  have e : @Eq (S768x768.Idx → EReal) (V1 m ρ c main_v11) (truncf (F := Ideal) .bf16 (transpose S768x768 [1, 0] (extractStridedSlice S768x768 ![0, 0] (m ((c : Thread nD τ).loc main_arg5)) slices_S1536x768_S768x768_0_0) transposes_S768x768_S768x768_1_0) bitsLt_bf16_f32) := by
    show StableHlo.after hostOps0 (W0 m ρ c) (Proc.devRef .tc main_v11) = _
    after_results
  rw [e, truncf_apply, transpose_ix2_apply]
  exact slice2_axis0_apply 0 _ _ o j (lo o) (Nat.zero_add _).symm

/-- The prepared matrix in main_v13, at (j, o). -/
theorem wv_at (j o : Fin 768) : V1 m ρ c main_v13 (ix2 j o) = m ((c : Thread nD τ).loc main_arg5) (ix2 (hi o) j) := by
  have e : @Eq (S768x768.Idx → EReal) (V1 m ρ c main_v13) (truncf (F := Ideal) .bf16 (transpose S768x768 [1, 0] (extractStridedSlice S768x768 ![768, 0] (m ((c : Thread nD τ).loc main_arg5)) slices_S1536x768_S768x768_768_0) transposes_S768x768_S768x768_1_0) bitsLt_bf16_f32) := by
    show StableHlo.after hostOps0 (W0 m ρ c) (Proc.devRef .tc main_v13) = _
    after_results
  rw [e, truncf_apply, transpose_ix2_apply]
  exact slice2_axis0_apply 768 _ _ o j (hi o) rfl

/-- The prepared matrix in main_v15, at (j, o). -/
theorem wx1_at (j o : Fin 768) : V1 m ρ c main_v15 (ix2 j o) = m ((c : Thread nD τ).loc main_arg7) (ix2 o (lo j)) := by
  have e : @Eq (S768x768.Idx → EReal) (V1 m ρ c main_v15) (truncf (F := Ideal) .bf16 (transpose S768x768 [1, 0] (extractStridedSlice S768x768 ![0, 0] (m ((c : Thread nD τ).loc main_arg7)) slices_S768x1536_S768x768_0_0) transposes_S768x768_S768x768_1_0) bitsLt_bf16_f32) := by
    show StableHlo.after hostOps0 (W0 m ρ c) (Proc.devRef .tc main_v15) = _
    after_results
  rw [e, truncf_apply, transpose_ix2_apply]
  exact slice2_axis1_apply 0 _ _ o j (lo j) (Nat.zero_add _).symm

/-- The prepared matrix in main_v17, at (j, o). -/
theorem wy1_at (j o : Fin 768) : V1 m ρ c main_v17 (ix2 j o) = m ((c : Thread nD τ).loc main_arg7) (ix2 o (hi j)) := by
  have e : @Eq (S768x768.Idx → EReal) (V1 m ρ c main_v17) (truncf (F := Ideal) .bf16 (transpose S768x768 [1, 0] (extractStridedSlice S768x768 ![0, 768] (m ((c : Thread nD τ).loc main_arg7)) slices_S768x1536_S768x768_0_768) transposes_S768x768_S768x768_1_0) bitsLt_bf16_f32) := by
    show StableHlo.after hostOps0 (W0 m ρ c) (Proc.devRef .tc main_v17) = _
    after_results
  rw [e, truncf_apply, transpose_ix2_apply]
  exact slice2_axis1_apply 768 _ _ o j (hi j) rfl

/-- The prepared matrix in main_v19, at (j, o). -/
theorem wx2_at (j o : Fin 768) : V1 m ρ c main_v19 (ix2 j o) = m ((c : Thread nD τ).loc main_arg9) (ix2 o (lo j)) := by
  have e : @Eq (S768x768.Idx → EReal) (V1 m ρ c main_v19) (truncf (F := Ideal) .bf16 (transpose S768x768 [1, 0] (extractStridedSlice S768x768 ![0, 0] (m ((c : Thread nD τ).loc main_arg9)) slices_S768x1536_S768x768_0_0) transposes_S768x768_S768x768_1_0) bitsLt_bf16_f32) := by
    show StableHlo.after hostOps0 (W0 m ρ c) (Proc.devRef .tc main_v19) = _
    after_results
  rw [e, truncf_apply, transpose_ix2_apply]
  exact slice2_axis1_apply 0 _ _ o j (lo j) (Nat.zero_add _).symm

/-- The prepared matrix in main_v21, at (j, o). -/
theorem wy2_at (j o : Fin 768) : V1 m ρ c main_v21 (ix2 j o) = m ((c : Thread nD τ).loc main_arg9) (ix2 o (hi j)) := by
  have e : @Eq (S768x768.Idx → EReal) (V1 m ρ c main_v21) (truncf (F := Ideal) .bf16 (transpose S768x768 [1, 0] (extractStridedSlice S768x768 ![0, 768] (m ((c : Thread nD τ).loc main_arg9)) slices_S768x1536_S768x768_0_768) transposes_S768x768_S768x768_1_0) bitsLt_bf16_f32) := by
    show StableHlo.after hostOps0 (W0 m ρ c) (Proc.devRef .tc main_v21) = _
    after_results
  rw [e, truncf_apply, transpose_ix2_apply]
  exact slice2_axis1_apply 768 _ _ o j (hi j) rfl

/-- The bias half in main_v2, at o. -/
theorem bk_at (o : Fin 768) : V1 m ρ c main_v2 (ix1 o) = m ((c : Thread nD τ).loc main_arg6) (ix1 (lo o)) := by
  have e : @Eq (S768.Idx → EReal) (V1 m ρ c main_v2) (extractStridedSlice S768 ![0] (m ((c : Thread nD τ).loc main_arg6)) slices_S1536_S768_0) := by
    show StableHlo.after hostOps0 (W0 m ρ c) (Proc.devRef .tc main_v2) = _
    after_results
  rw [e]
  exact extractStridedSlice_apply _ _ _ _ _ (fun a => match a with | ⟨0, _⟩ => (Nat.zero_add _).symm)

/-- The bias half in main_v3, at o. -/
theorem bv_at (o : Fin 768) : V1 m ρ c main_v3 (ix1 o) = m ((c : Thread nD τ).loc main_arg6) (ix1 (hi o)) := by
  have e : @Eq (S768.Idx → EReal) (V1 m ρ c main_v3) (extractStridedSlice S768 ![768] (m ((c : Thread nD τ).loc main_arg6)) slices_S1536_S768_768) := by
    show StableHlo.after hostOps0 (W0 m ρ c) (Proc.devRef .tc main_v3) = _
    after_results
  rw [e]
  exact extractStridedSlice_apply _ _ _ _ _ (fun a => match a with | ⟨0, _⟩ => rfl)

theorem arg0_at : V1 m ρ c main_arg0 = m ((c : Thread nD τ).loc main_arg0) := by
    show StableHlo.after hostOps0 (W0 m ρ c) (Proc.devRef .tc main_arg0) = _
    after_results

theorem arg1_at : V1 m ρ c main_arg1 = m ((c : Thread nD τ).loc main_arg1) := by
    show StableHlo.after hostOps0 (W0 m ρ c) (Proc.devRef .tc main_arg1) = _
    after_results

theorem arg2_at : V1 m ρ c main_arg2 = m ((c : Thread nD τ).loc main_arg2) := by
    show StableHlo.after hostOps0 (W0 m ρ c) (Proc.devRef .tc main_arg2) = _
    after_results

theorem arg4_at : V1 m ρ c main_arg4 = m ((c : Thread nD τ).loc main_arg4) := by
    show StableHlo.after hostOps0 (W0 m ρ c) (Proc.devRef .tc main_arg4) = _
    after_results

theorem arg8_at : V1 m ρ c main_arg8 = m ((c : Thread nD τ).loc main_arg8) := by
    show StableHlo.after hostOps0 (W0 m ρ c) (Proc.devRef .tc main_arg8) = _
    after_results

theorem arg10_at : V1 m ρ c main_arg10 = m ((c : Thread nD τ).loc main_arg10) := by
    show StableHlo.after hostOps0 (W0 m ρ c) (Proc.devRef .tc main_arg10) = _
    after_results

end Cert.KernelIdeal.HostValue

end
-- ==== Proof.KernelRun.lean ====
/-
  The idealized kernel's run with its RESULT array named.

  The program is a stretch of host operations (slices, transposes, changes of format of the weights) followed by two
  kernel calls. Its generated frame follows the contents of every buffer through the three segments — `W1` after the
  host stretch, `W2` after the first call, `W3` after the second — and concludes only that the arguments end
  unchanged. The same run, read at the result buffer as well, says that the result array ends at `W3` there: what the
  second call's write-backs leave. That is all this module states; what `W3` holds at the result is read elsewhere.
-/
import proofs.«165018_j42296837931312_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel terminates without a fault, its result array ends at the
    contents the second call's write-backs leave (`W3` at the result buffer), and its arguments end unchanged. -/
theorem run_result : θ_run defs (onTc (τ := τ) (main (F := F))) ⟨m, fun _ => 0, ρ⟩ (fun r => ∀ c : Dev nD,
      r.2.mem ((c.tc : Thread nD τ).loc main_v23) = W3 m ρ c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v23 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c),
       (h c _ (mem_uc main_arg10 (by decide))).trans (W3_main_arg10 m ρ c)⟩)

end Cert.KernelIdeal.RunValue

end
-- ==== Proof.KernelValue.lean ====
/-
  The idealized kernel's result array, as a function of the launch memory.

  The run ends with the result buffer at what the second call's write-backs leave; that call finds the first blend where
  the first call's write-backs left it and s, its weights and bias where the host stretch left them; the first call
  finds everything where the host stretch left it. Putting the two calls' arrays behind one another, the result array is
  the specification's result of the eleven argument arrays.
-/
import proofs.«165018_j42296837931312_1_alg».proof.Proof.Region0Array
import proofs.«165018_j42296837931312_1_alg».proof.Proof.HostWeights
import proofs.«165018_j42296837931312_1_alg».proof.Proof.KernelRun

set_option maxRecDepth 16384

noncomputable section

open scoped BigOperators

namespace Cert.KernelIdeal.ArrayValue

open Cert.KernelIdeal Cert.KernelIdeal.Gen Cert.GatedAttention
open Idealize.ShloMosaic Idealize.ShloMosaic.ValueIdx Idealize.ShloMosaic.TcCoe Idealize.SL.Sem Cert.KernelIdeal.HostValue

variable (m : (ℓ : Loc nD τ sig) → Buf (Elt Ideal) ℓ) (ρ : Dev nD → PrngReg) (c : Dev nD)

/-- After the first call the buffer it writes holds the specification's first blend. -/
theorem fused_value :
    @Eq (S8x256x768.Idx → EReal) (V2 m ρ c main_v22) (fusedArr (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  (W2_arr m ρ c 11).trans
    (region0_array (V1 m ρ) c (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      (arg0_at m ρ c) (arg2_at m ρ c) (wq_at m ρ c) (arg4_at m ρ c) (wk_at m ρ c) (bk_at m ρ c) (wv_at m ρ c)
      (bv_at m ρ c) (wx1_at m ρ c) (wy1_at m ρ c) (arg8_at m ρ c))

/-- What the first call does not write reaches the second call as the host stretch left it. -/
theorem kept_arg1 : @Eq (S8x32x768.Idx → EReal) (V2 m ρ c main_arg1) (m ((c : Thread nD τ).loc main_arg1)) :=
  (W2_of_ne m ρ c main_arg1 (by decide)).trans (arg1_at m ρ c)
theorem kept_arg10 : @Eq (S768.Idx → EReal) (V2 m ρ c main_arg10) (m ((c : Thread nD τ).loc main_arg10)) :=
  (W2_of_ne m ρ c main_arg10 (by decide)).trans (arg10_at m ρ c)
theorem kept_wx2 (j o : Fin 768) : V2 m ρ c main_v19 (ix2 j o) = (m ((c : Thread nD τ).loc main_arg9)) (ix2 o (lo j)) := by
  rw [show V2 m ρ c main_v19 = V1 m ρ c main_v19 from W2_of_ne m ρ c main_v19 (by decide)]
  exact wx2_at m ρ c j o
theorem kept_wy2 (j o : Fin 768) : V2 m ρ c main_v21 (ix2 j o) = (m ((c : Thread nD τ).loc main_arg9)) (ix2 o (hi j)) := by
  rw [show V2 m ρ c main_v21 = V1 m ρ c main_v21 from W2_of_ne m ρ c main_v21 (by decide)]
  exact wy2_at m ρ c j o

/-- The result buffer at the end of the run holds the specification's result of the argument arrays. -/
theorem result_value :
    @Eq (S8x256x32x768.Idx → EReal) (W3 m ρ c (Proc.devRef .tc main_v23)) (resultArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) :=
  (W3_arr m ρ c 5).trans
    (region1_array (V2 m ρ) c (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      (fused_value m ρ c) (kept_arg1 m ρ c) (kept_wx2 m ρ c) (kept_wy2 m ρ c) (kept_arg10 m ρ c))

end Cert.KernelIdeal.ArrayValue

end
-- ==== Proof.RefScores.lean ====
/-
  The reference's projections and scores, entry by entry: its first twelve operations read at an index are the
  specification's query, key, value and score. The key and the value are the two halves, along the last axis, of ONE
  product against the stacked weight; a slice reads that product at row o, or at row 768 + o.
-/
import proofs.«165018_j42296837931312_1_alg».proof.Proof.Gen.ReferenceIdeal.Read
import proofs.«165018_j42296837931312_1_alg».proof.Proof.Spec

set_option maxRecDepth 16384

noncomputable section

open scoped BigOperators

namespace Cert.ReferenceIdeal.RefValue

open Cert.ReferenceIdeal Cert.ReferenceIdeal.Gen Cert.ReferenceIdeal.Read Cert.GatedAttention
open Idealize.ShloMosaic Idealize.ShloMosaic.ValueIdx

theorem l0 (b : Fin 8) (l : Fin 256) (o : Fin 768) (k : Fin 768) :
    lidx_main_v0 (ix3 b l o) k = ix3 b l k :=
  funext fun a => match a with | ⟨0, _⟩ => rfl | ⟨1, _⟩ => rfl | ⟨2, _⟩ => rfl
theorem r0 (b : Fin 8) (l : Fin 256) (o : Fin 768) (k : Fin 768) :
    ridx_main_v0 (ix3 b l o) k = ix2 o k :=
  funext fun a => match a with | ⟨0, _⟩ => rfl | ⟨1, _⟩ => rfl
theorem i21 (b : Fin 8) (l : Fin 256) (o : Fin 768) :
    idx_main_v1 (idx_main_v2 (ix3 b l o)) = ix1 o :=
  funext fun a => match a with | ⟨0, _⟩ => rfl

/-- The reference's query. -/
theorem ref_query (x0 : (⟨S8x256x768, .f32⟩ : BufTy).Contents (Elt Ideal)) (x3 : (⟨S768x768, .f32⟩ : BufTy).Contents (Elt Ideal)) (x4 : (⟨S768, .f32⟩ : BufTy).Contents (Elt Ideal)) (b : Fin 8) (l : Fin 256) (o : Fin 768) :
    val_main_v3 (F := Ideal) x0 x3 x4 (ix3 b l o) = query x0 x3 x4 b l o := by
  rw [val_main_v3_apply, val_main_v0_apply, val_main_v2_apply, val_main_v1_apply]
  simp only [l0, r0, i21]
  rfl

theorem l4lo (b : Fin 8) (m : Fin 128) (o : Fin 768) (k : Fin 768) :
    lidx_main_v4 (idx_main_v8 (ix3 b m o)) k = ix3 b m k :=
  funext fun a => match a with | ⟨0, _⟩ => rfl | ⟨1, _⟩ => rfl | ⟨2, _⟩ => rfl
theorem r4lo (b : Fin 8) (m : Fin 128) (o : Fin 768) (k : Fin 768) :
    ridx_main_v4 (idx_main_v8 (ix3 b m o)) k = ix2 (lo o) k :=
  funext fun a => match a with | ⟨0, _⟩ => rfl | ⟨1, _⟩ => rfl
theorem i65lo (b : Fin 8) (m : Fin 128) (o : Fin 768) :
    idx_main_v5 (idx_main_v6 (idx_main_v8 (ix3 b m o))) = ix1 (lo o) :=
  funext fun a => match a with | ⟨0, _⟩ => rfl
theorem l4hi (b : Fin 8) (m : Fin 128) (o : Fin 768) (k : Fin 768) :
    lidx_main_v4 (idx_main_v9 (ix3 b m o)) k = ix3 b m k :=
  funext fun a => match a with | ⟨0, _⟩ => rfl | ⟨1, _⟩ => rfl | ⟨2, _⟩ => rfl
theorem r4hi (b : Fin 8) (m : Fin 128) (o : Fin 768) (k : Fin 768) :
    ridx_main_v4 (idx_main_v9 (ix3 b m o)) k = ix2 (hi o) k :=
  funext fun a => match a with | ⟨0, _⟩ => rfl | ⟨1, _⟩ => rfl
theorem i65hi (b : Fin 8) (m : Fin 128) (o : Fin 768) :
    idx_main_v5 (idx_main_v6 (idx_main_v9 (ix3 b m o))) = ix1 (hi o) :=
  funext fun a => match a with | ⟨0, _⟩ => rfl

/-- The reference's key: the stacked product's first 768 columns. -/
theorem ref_key (x2 : (⟨S8x128x768, .f32⟩ : BufTy).Contents (Elt Ideal)) (x5 : (⟨S1536x768, .f32⟩ : BufTy).Contents (Elt Ideal)) (x6 : (⟨S1536, .f32⟩ : BufTy).Contents (Elt Ideal)) (b : Fin 8) (m : Fin 128) (o : Fin 768) :
    val_main_v8 (F := Ideal) x2 x5 x6 (ix3 b m o) = key x2 x5 x6 b m o := by
  rw [val_main_v8_apply, val_main_v7_apply, val_main_v4_apply, val_main_v6_apply, val_main_v5_apply]
  simp only [l4lo, r4lo, i65lo]
  rfl

/-- The reference's value: the stacked product's last 768 columns. -/
theorem ref_value (x2 : (⟨S8x128x768, .f32⟩ : BufTy).Contents (Elt Ideal)) (x5 : (⟨S1536x768, .f32⟩ : BufTy).Contents (Elt Ideal)) (x6 : (⟨S1536, .f32⟩ : BufTy).Contents (Elt Ideal)) (b : Fin 8) (m : Fin 128) (o : Fin 768) :
    val_main_v9 (F := Ideal) x2 x5 x6 (ix3 b m o) = value x2 x5 x6 b m o := by
  rw [val_main_v9_apply, val_main_v7_apply, val_main_v4_apply, val_main_v6_apply, val_main_v5_apply]
  simp only [l4hi, r4hi, i65hi]
  rfl

theorem l10 (b : Fin 8) (l : Fin 256) (m : Fin 128) (k : Fin 768) :
    lidx_main_v10 (ix3 b l m) k = ix3 b l k :=
  funext fun a => match a with | ⟨0, _⟩ => rfl | ⟨1, _⟩ => rfl | ⟨2, _⟩ => rfl
theorem r10 (b : Fin 8) (l : Fin 256) (m : Fin 128) (k : Fin 768) :
    ridx_main_v10 (ix3 b l m) k = ix3 b m k :=
  funext fun a => match a with | ⟨0, _⟩ => rfl | ⟨1, _⟩ => rfl | ⟨2, _⟩ => rfl

/-- The reference's score: the product of a query row and a key row, divided by the divisor's word. -/
theorem ref_score (x0 : (⟨S8x256x768, .f32⟩ : BufTy).Contents (Elt Ideal)) (x2 : (⟨S8x128x768, .f32⟩ : BufTy).Contents (Elt Ideal)) (x3 : (⟨S768x768, .f32⟩ : BufTy).Contents (Elt Ideal)) (x4 : (⟨S768, .f32⟩ : BufTy).Contents (Elt Ideal)) (x5 : (⟨S1536x768, .f32⟩ : BufTy).Contents (Elt Ideal)) (x6 : (⟨S1536, .f32⟩ : BufTy).Contents (Elt Ideal)) (b : Fin 8) (l : Fin 256) (m : Fin 128) :
    val_main_v12 (F := Ideal) x0 x2 x3 x4 x5 x6 (ix3 b l m) = score x0 x2 x3 x4 x5 x6 b l m := by
  rw [val_main_v12_apply, val_main_v10_apply, val_main_v11_apply, val_main_cst_apply]
  simp only [l10, r10, ref_query, ref_key]
  rfl

end Cert.ReferenceIdeal.RefValue

end
-- ==== Proof.RefSoftmax.lean ====
/-
  The reference's softmax over the 128 keys and the context it weights, entry by entry.

  The row maximum is a fold of `max` from −∞ along the last axis (then taken once more against −∞); every score is
  shifted by it and exponentiated; the exponentials are divided by their row sum — which the reference takes from the
  word of zero, an initial value that adds nothing —; and the context at (b, l, o) is the weights' combination of the
  128 value rows.
-/
import proofs.«165018_j42296837931312_1_alg».proof.Proof.RefScores
import Idealize.ShloMosaic.PureOps.Ideal.Laws

set_option maxRecDepth 16384

noncomputable section

open scoped BigOperators

namespace Cert.ReferenceIdeal.RefValue

open Cert.ReferenceIdeal Cert.ReferenceIdeal.Gen Cert.ReferenceIdeal.Read Cert.GatedAttention
open Idealize.ShloMosaic Idealize.ShloMosaic.ValueIdx

/-- The last axis of a `[8, 256, 128]` array, reduced away. -/
theorem reduces_last : S8x256x128.Reduces ([2] : List (Fin S8x256x128.rank)) S8x256 := by decide

/-- Putting coordinate `m` back at the reduced axis of `(b, l)` gives `(b, l, m)`. -/
theorem lift_last (b : Fin 8) (l : Fin 256) (m : Fin 128) : reduces_last.lift (ix2 b l) m = ix3 b l m :=
  funext fun a => Fin.ext (by match a with | ⟨0, _⟩ => rfl | ⟨1, _⟩ => rfl | ⟨2, _⟩ => rfl)

/-- The reference's row maximum. -/
theorem ref_rowMax (x0 : (⟨S8x256x768, .f32⟩ : BufTy).Contents (Elt Ideal)) (x2 : (⟨S8x128x768, .f32⟩ : BufTy).Contents (Elt Ideal)) (x3 : (⟨S768x768, .f32⟩ : BufTy).Contents (Elt Ideal)) (x4 : (⟨S768, .f32⟩ : BufTy).Contents (Elt Ideal)) (x5 : (⟨S1536x768, .f32⟩ : BufTy).Contents (Elt Ideal)) (x6 : (⟨S1536, .f32⟩ : BufTy).Contents (Elt Ideal)) (b : Fin 8) (l : Fin 256) :
    val_main_v15 (F := Ideal) x0 x2 x3 x4 x5 x6 (ix2 b l) = rowMax x0 x2 x3 x4 x5 x6 b l := by
  rw [val_main_v15_apply, val_main_v14_apply, val_main_cst_1_apply]
  unfold val_main_v13
  rw [Host.reduce_eq_fold_single FloatOps.maximumf _ _ reducesTo_S8x256x128_S8x256_d2 reduces_last h_S_ (ix2 b l)]
  have hf : (val_main_v12 (F := Ideal) x0 x2 x3 x4 x5 x6 ∘ reduces_last.lift (ix2 b l))
      = fun m : Fin 128 => score x0 x2 x3 x4 x5 x6 b l m :=
    funext fun m =>
      (congrArg (val_main_v12 (F := Ideal) x0 x2 x3 x4 x5 x6) (lift_last b l m)).trans (ref_score x0 x2 x3 x4 x5 x6 b l m)
  rw [hf]
  rfl

theorem i1617 (b : Fin 8) (l : Fin 256) (m : Fin 128) :
    idx_main_v16 (idx_main_v17 (ix3 b l m)) = ix2 b l :=
  funext fun a => match a with | ⟨0, _⟩ => rfl | ⟨1, _⟩ => rfl

/-- The reference's shifted exponential. -/
theorem ref_expo (x0 : (⟨S8x256x768, .f32⟩ : BufTy).Contents (Elt Ideal)) (x2 : (⟨S8x128x768, .f32⟩ : BufTy).Contents (Elt Ideal)) (x3 : (⟨S768x768, .f32⟩ : BufTy).Contents (Elt Ideal)) (x4 : (⟨S768, .f32⟩ : BufTy).Contents (Elt Ideal)) (x5 : (⟨S1536x768, .f32⟩ : BufTy).Contents (Elt Ideal)) (x6 : (⟨S1536, .f32⟩ : BufTy).Contents (Elt Ideal)) (b : Fin 8) (l : Fin 256) (m : Fin 128) :
    val_main_v19 (F := Ideal) x0 x2 x3 x4 x5 x6 (ix3 b l m) = expo x0 x2 x3 x4 x5 x6 b l m := by
  rw [val_main_v19_apply, val_main_v18_apply, val_main_v17_apply, val_main_v16_apply, i1617, ref_score, ref_rowMax]
  rfl

theorem i2122 (b : Fin 8) (l : Fin 256) (m : Fin 128) :
    idx_main_v21 (idx_main_v22 (ix3 b l m)) = ix2 b l :=
  funext fun a => match a with | ⟨0, _⟩ => rfl | ⟨1, _⟩ => rfl
theorem i20 (b : Fin 8) (l : Fin 256) (k : Fin 128) :
    idx_main_v20 (ix2 b l) k = ix3 b l k :=
  funext fun a => match a with | ⟨0, _⟩ => rfl | ⟨1, _⟩ => rfl | ⟨2, _⟩ => rfl

/-- The reference's softmax weight: the row sum's initial value is the word of zero. -/
theorem ref_weight (x0 : (⟨S8x256x768, .f32⟩ : BufTy).Contents (Elt Ideal)) (x2 : (⟨S8x128x768, .f32⟩ : BufTy).Contents (Elt Ideal)) (x3 : (⟨S768x768, .f32⟩ : BufTy).Contents (Elt Ideal)) (x4 : (⟨S768, .f32⟩ : BufTy).Contents (Elt Ideal)) (x5 : (⟨S1536x768, .f32⟩ : BufTy).Contents (Elt Ideal)) (x6 : (⟨S1536, .f32⟩ : BufTy).Contents (Elt Ideal)) (b : Fin 8) (l : Fin 256) (m : Fin 128) :
    val_main_v23 (F := Ideal) x0 x2 x3 x4 x5 x6 (ix3 b l m) = weight x0 x2 x3 x4 x5 x6 b l m := by
  rw [val_main_v23_apply, val_main_v22_apply, val_main_v21_apply, i2122, val_main_v20_apply, val_main_cst_2_apply]
  simp only [i20, ref_expo]
  show Ideal.div _ (Ideal.ofBits .f32 0x00000000#32 + _) = _
  rw [Ideal.ofBits_zero_f32, zero_add]
  rfl

theorem l24 (b : Fin 8) (l : Fin 256) (o : Fin 768) (k : Fin 128) :
    lidx_main_v24 (ix3 b l o) k = ix3 b l k :=
  funext fun a => match a with | ⟨0, _⟩ => rfl | ⟨1, _⟩ => rfl | ⟨2, _⟩ => rfl
theorem r24 (b : Fin 8) (l : Fin 256) (o : Fin 768) (k : Fin 128) :
    ridx_main_v24 (ix3 b l o) k = ix3 b k o :=
  funext fun a => match a with | ⟨0, _⟩ => rfl | ⟨1, _⟩ => rfl | ⟨2, _⟩ => rfl

/-- The reference's context. -/
theorem ref_context (x0 : (⟨S8x256x768, .f32⟩ : BufTy).Contents (Elt Ideal)) (x2 : (⟨S8x128x768, .f32⟩ : BufTy).Contents (Elt Ideal)) (x3 : (⟨S768x768, .f32⟩ : BufTy).Contents (Elt Ideal)) (x4 : (⟨S768, .f32⟩ : BufTy).Contents (Elt Ideal)) (x5 : (⟨S1536x768, .f32⟩ : BufTy).Contents (Elt Ideal)) (x6 : (⟨S1536, .f32⟩ : BufTy).Contents (Elt Ideal)) (b : Fin 8) (l : Fin 256) (o : Fin 768) :
    val_main_v24 (F := Ideal) x0 x2 x3 x4 x5 x6 (ix3 b l o) = context x0 x2 x3 x4 x5 x6 b l o := by
  rw [val_main_v24_apply]
  simp only [l24, r24, ref_weight, ref_value]
  rfl

end Cert.ReferenceIdeal.RefValue

end
-- ==== Proof.RefBlends.lean ====
/-
  The reference's two gated blends, entry by entry, and hence its whole result array.

  The reference broadcasts x and the context along a new axis of 32, and s along the axis of 256, before it blends;
  read at an index (b, l, k, o) a broadcast operand is the original at (b, l, o), or at (b, k, o). Each gate is
  1 / (1 + exp (−z)) spelt with the word of 1, which is the sigmoid of z; z is an affine form whose two products run
  over the two column halves of the gate's weight (a slice reads column h, or column 768 + h).
-/
import proofs.«165018_j42296837931312_1_alg».proof.Proof.RefSoftmax
import Idealize.ShloMosaic.Lib.IdealHost

set_option maxRecDepth 16384

noncomputable section

open scoped BigOperators

namespace Cert.ReferenceIdeal.RefValue

open Cert.ReferenceIdeal Cert.ReferenceIdeal.Gen Cert.ReferenceIdeal.Read Cert.GatedAttention
open Idealize.ShloMosaic Idealize.ShloMosaic.ValueIdx

theorem i2728 (b : Fin 8) (l : Fin 256) (k : Fin 32) (o : Fin 768) :
    idx_main_v27 (idx_main_v28 (ix4 b l k o)) = ix3 b l o :=
  funext fun a => match a with | ⟨0, _⟩ => rfl | ⟨1, _⟩ => rfl | ⟨2, _⟩ => rfl
theorem i2526 (b : Fin 8) (l : Fin 256) (k : Fin 32) (o : Fin 768) :
    idx_main_v25 (idx_main_v26 (ix4 b l k o)) = ix3 b l o :=
  funext fun a => match a with | ⟨0, _⟩ => rfl | ⟨1, _⟩ => rfl | ⟨2, _⟩ => rfl
theorem i2930 (b : Fin 8) (l : Fin 256) (k : Fin 32) (o : Fin 768) :
    idx_main_v29 (idx_main_v30 (ix4 b l k o)) = ix3 b k o :=
  funext fun a => match a with | ⟨0, _⟩ => rfl | ⟨1, _⟩ => rfl | ⟨2, _⟩ => rfl

/-- x broadcast along the axis of 32. -/
theorem ref_xb (x0 : (⟨S8x256x768, .f32⟩ : BufTy).Contents (Elt Ideal)) (b : Fin 8) (l : Fin 256) (k : Fin 32) (o : Fin 768) : val_main_v28 (F := Ideal) x0 (ix4 b l k o) = x0 (ix3 b l o) := by
  rw [val_main_v28_apply, val_main_v27_apply, i2728]
/-- The context broadcast along the axis of 32. -/
theorem ref_cb (x0 : (⟨S8x256x768, .f32⟩ : BufTy).Contents (Elt Ideal)) (x2 : (⟨S8x128x768, .f32⟩ : BufTy).Contents (Elt Ideal)) (x3 : (⟨S768x768, .f32⟩ : BufTy).Contents (Elt Ideal)) (x4 : (⟨S768, .f32⟩ : BufTy).Contents (Elt Ideal)) (x5 : (⟨S1536x768, .f32⟩ : BufTy).Contents (Elt Ideal)) (x6 : (⟨S1536, .f32⟩ : BufTy).Contents (Elt Ideal)) (b : Fin 8) (l : Fin 256) (k : Fin 32) (o : Fin 768) : val_main_v26 (F := Ideal) x0 x2 x3 x4 x5 x6 (ix4 b l k o) = context x0 x2 x3 x4 x5 x6 b l o := by
  rw [val_main_v26_apply, val_main_v25_apply, i2526, ref_context]
/-- s broadcast along the axis of 256. -/
theorem ref_sb (x1 : (⟨S8x32x768, .f32⟩ : BufTy).Contents (Elt Ideal)) (b : Fin 8) (l : Fin 256) (k : Fin 32) (o : Fin 768) : val_main_v30 (F := Ideal) x1 (ix4 b l k o) = x1 (ix3 b k o) := by
  rw [val_main_v30_apply, val_main_v29_apply, i2930]

theorem l33 (b : Fin 8) (l : Fin 256) (k : Fin 32) (o : Fin 768) (h : Fin 768) :
    lidx_main_v33 (ix4 b l k o) h = ix4 b l k h :=
  funext fun a => match a with | ⟨0, _⟩ => rfl | ⟨1, _⟩ => rfl | ⟨2, _⟩ => rfl | ⟨3, _⟩ => rfl
theorem l34 (b : Fin 8) (l : Fin 256) (k : Fin 32) (o : Fin 768) (h : Fin 768) :
    lidx_main_v34 (ix4 b l k o) h = ix4 b l k h :=
  funext fun a => match a with | ⟨0, _⟩ => rfl | ⟨1, _⟩ => rfl | ⟨2, _⟩ => rfl | ⟨3, _⟩ => rfl
theorem ri33 (b : Fin 8) (l : Fin 256) (k : Fin 32) (o : Fin 768) (h : Fin 768) :
    idx_main_v31 (ridx_main_v33 (ix4 b l k o) h) = ix2 o (lo h) :=
  funext fun a => match a with | ⟨0, _⟩ => rfl | ⟨1, _⟩ => rfl
theorem ri34 (b : Fin 8) (l : Fin 256) (k : Fin 32) (o : Fin 768) (h : Fin 768) :
    idx_main_v32 (ridx_main_v34 (ix4 b l k o) h) = ix2 o (hi h) :=
  funext fun a => match a with | ⟨0, _⟩ => rfl | ⟨1, _⟩ => rfl
theorem i3637 (b : Fin 8) (l : Fin 256) (k : Fin 32) (o : Fin 768) :
    idx_main_v36 (idx_main_v37 (ix4 b l k o)) = ix1 o :=
  funext fun a => match a with | ⟨0, _⟩ => rfl

/-- The reference's first gate. -/
theorem ref_gate1 (x0 : (⟨S8x256x768, .f32⟩ : BufTy).Contents (Elt Ideal)) (x2 : (⟨S8x128x768, .f32⟩ : BufTy).Contents (Elt Ideal)) (x3 : (⟨S768x768, .f32⟩ : BufTy).Contents (Elt Ideal)) (x4 : (⟨S768, .f32⟩ : BufTy).Contents (Elt Ideal)) (x5 : (⟨S1536x768, .f32⟩ : BufTy).Contents (Elt Ideal)) (x6 : (⟨S1536, .f32⟩ : BufTy).Contents (Elt Ideal)) (x7 : (⟨S768x1536, .f32⟩ : BufTy).Contents (Elt Ideal)) (x8 : (⟨S768, .f32⟩ : BufTy).Contents (Elt Ideal)) (b : Fin 8) (l : Fin 256) (k : Fin 32) (o : Fin 768) :
    val_main_v44 (F := Ideal) x0 x2 x3 x4 x5 x6 x7 x8 (ix4 b l k o) = gate1 x0 x2 x3 x4 x5 x6 x7 x8 b l o := by
  rw [val_main_v44_apply, val_main_v43_apply, val_main_cst_4_apply, val_main_v42_apply, val_main_v41_apply,
    val_main_cst_3_apply, val_main_v40_apply, val_main_v39_apply, val_main_v38_apply, val_main_v35_apply,
    val_main_v33_apply, val_main_v34_apply, val_main_v37_apply, val_main_v36_apply, i3637]
  simp only [l33, l34, ref_xb, ref_cb, val_main_v31_apply, val_main_v32_apply, ri33, ri34]
  simp only [Ideal.hostDivf_def, Ideal.addf_def, Ideal.hostUnary_exp_def, Ideal.hostNegf_def, Ideal.negf_def,
    Ideal.ofBits_def, Ideal.ofBits_one_f32]
  rfl

/-- The reference's first blend (the same at every k). -/
theorem ref_fused (x0 : (⟨S8x256x768, .f32⟩ : BufTy).Contents (Elt Ideal)) (x2 : (⟨S8x128x768, .f32⟩ : BufTy).Contents (Elt Ideal)) (x3 : (⟨S768x768, .f32⟩ : BufTy).Contents (Elt Ideal)) (x4 : (⟨S768, .f32⟩ : BufTy).Contents (Elt Ideal)) (x5 : (⟨S1536x768, .f32⟩ : BufTy).Contents (Elt Ideal)) (x6 : (⟨S1536, .f32⟩ : BufTy).Contents (Elt Ideal)) (x7 : (⟨S768x1536, .f32⟩ : BufTy).Contents (Elt Ideal)) (x8 : (⟨S768, .f32⟩ : BufTy).Contents (Elt Ideal)) (b : Fin 8) (l : Fin 256) (k : Fin 32) (o : Fin 768) :
    val_main_v49 (F := Ideal) x0 x2 x3 x4 x5 x6 x7 x8 (ix4 b l k o) = fused x0 x2 x3 x4 x5 x6 x7 x8 b l o := by
  rw [val_main_v49_apply, val_main_v45_apply, val_main_v48_apply, val_main_v47_apply, val_main_v46_apply,
    val_main_cst_5_apply, ref_gate1, ref_xb, ref_cb]
  rfl

theorem l52 (b : Fin 8) (l : Fin 256) (k : Fin 32) (o : Fin 768) (h : Fin 768) :
    lidx_main_v52 (ix4 b l k o) h = ix4 b l k h :=
  funext fun a => match a with | ⟨0, _⟩ => rfl | ⟨1, _⟩ => rfl | ⟨2, _⟩ => rfl | ⟨3, _⟩ => rfl
theorem l53 (b : Fin 8) (l : Fin 256) (k : Fin 32) (o : Fin 768) (h : Fin 768) :
    lidx_main_v53 (ix4 b l k o) h = ix4 b l k h :=
  funext fun a => match a with | ⟨0, _⟩ => rfl | ⟨1, _⟩ => rfl | ⟨2, _⟩ => rfl | ⟨3, _⟩ => rfl
theorem ri52 (b : Fin 8) (l : Fin 256) (k : Fin 32) (o : Fin 768) (h : Fin 768) :
    idx_main_v50 (ridx_main_v52 (ix4 b l k o) h) = ix2 o (lo h) :=
  funext fun a => match a with | ⟨0, _⟩ => rfl | ⟨1, _⟩ => rfl
theorem ri53 (b : Fin 8) (l : Fin 256) (k : Fin 32) (o : Fin 768) (h : Fin 768) :
    idx_main_v51 (ridx_main_v53 (ix4 b l k o) h) = ix2 o (hi h) :=
  funext fun a => match a with | ⟨0, _⟩ => rfl | ⟨1, _⟩ => rfl
theorem i5556 (b : Fin 8) (l : Fin 256) (k : Fin 32) (o : Fin 768) :
    idx_main_v55 (idx_main_v56 (ix4 b l k o)) = ix1 o :=
  funext fun a => match a with | ⟨0, _⟩ => rfl

/-- The reference's second gate. -/
theorem ref_gate2 (x0 : (⟨S8x256x768, .f32⟩ : BufTy).Contents (Elt Ideal)) (x1 : (⟨S8x32x768, .f32⟩ : BufTy).Contents (Elt Ideal)) (x2 : (⟨S8x128x768, .f32⟩ : BufTy).Contents (Elt Ideal)) (x3 : (⟨S768x768, .f32⟩ : BufTy).Contents (Elt Ideal)) (x4 : (⟨S768, .f32⟩ : BufTy).Contents (Elt Ideal)) (x5 : (⟨S1536x768, .f32⟩ : BufTy).Contents (Elt Ideal)) (x6 : (⟨S1536, .f32⟩ : BufTy).Contents (Elt Ideal)) (x7 : (⟨S768x1536, .f32⟩ : BufTy).Contents (Elt Ideal)) (x8 : (⟨S768, .f32⟩ : BufTy).Contents (Elt Ideal)) (x9 : (⟨S768x1536, .f32⟩ : BufTy).Contents (Elt Ideal)) (x10 : (⟨S768, .f32⟩ : BufTy).Contents (Elt Ideal)) (b : Fin 8) (l : Fin 256) (k : Fin 32) (o : Fin 768) :
    val_main_v63 (F := Ideal) x0 x1 x2 x3 x4 x5 x6 x7 x8 x9 x10 (ix4 b l k o) = gate2 x0 x1 x2 x3 x4 x5 x6 x7 x8 x9 x10 b l k o := by
  rw [val_main_v63_apply, val_main_v62_apply, val_main_cst_7_apply, val_main_v61_apply, val_main_v60_apply,
    val_main_cst_6_apply, val_main_v59_apply, val_main_v58_apply, val_main_v57_apply, val_main_v54_apply,
    val_main_v52_apply, val_main_v53_apply, val_main_v56_apply, val_main_v55_apply, i5556]
  simp only [l52, l53, ref_fused, ref_sb, val_main_v50_apply, val_main_v51_apply, ri52, ri53]
  simp only [Ideal.hostDivf_def, Ideal.addf_def, Ideal.hostUnary_exp_def, Ideal.hostNegf_def, Ideal.negf_def,
    Ideal.ofBits_def, Ideal.ofBits_one_f32]
  rfl

/-- The reference's result at an index. -/
theorem ref_result_at (x0 : (⟨S8x256x768, .f32⟩ : BufTy).Contents (Elt Ideal)) (x1 : (⟨S8x32x768, .f32⟩ : BufTy).Contents (Elt Ideal)) (x2 : (⟨S8x128x768, .f32⟩ : BufTy).Contents (Elt Ideal)) (x3 : (⟨S768x768, .f32⟩ : BufTy).Contents (Elt Ideal)) (x4 : (⟨S768, .f32⟩ : BufTy).Contents (Elt Ideal)) (x5 : (⟨S1536x768, .f32⟩ : BufTy).Contents (Elt Ideal)) (x6 : (⟨S1536, .f32⟩ : BufTy).Contents (Elt Ideal)) (x7 : (⟨S768x1536, .f32⟩ : BufTy).Contents (Elt Ideal)) (x8 : (⟨S768, .f32⟩ : BufTy).Contents (Elt Ideal)) (x9 : (⟨S768x1536, .f32⟩ : BufTy).Contents (Elt Ideal)) (x10 : (⟨S768, .f32⟩ : BufTy).Contents (Elt Ideal)) (b : Fin 8) (l : Fin 256) (k : Fin 32) (o : Fin 768) :
    val_main_v68 (F := Ideal) x0 x1 x2 x3 x4 x5 x6 x7 x8 x9 x10 (ix4 b l k o) = result x0 x1 x2 x3 x4 x5 x6 x7 x8 x9 x10 b l k o := by
  rw [val_main_v68_apply, val_main_v64_apply, val_main_v67_apply, val_main_v66_apply, val_main_v65_apply,
    val_main_cst_8_apply, ref_gate2, ref_fused, ref_sb]
  rfl

/-- The reference's result array is the specification's. -/
theorem ref_result (x0 : (⟨S8x256x768, .f32⟩ : BufTy).Contents (Elt Ideal)) (x1 : (⟨S8x32x768, .f32⟩ : BufTy).Contents (Elt Ideal)) (x2 : (⟨S8x128x768, .f32⟩ : BufTy).Contents (Elt Ideal)) (x3 : (⟨S768x768, .f32⟩ : BufTy).Contents (Elt Ideal)) (x4 : (⟨S768, .f32⟩ : BufTy).Contents (Elt Ideal)) (x5 : (⟨S1536x768, .f32⟩ : BufTy).Contents (Elt Ideal)) (x6 : (⟨S1536, .f32⟩ : BufTy).Contents (Elt Ideal)) (x7 : (⟨S768x1536, .f32⟩ : BufTy).Contents (Elt Ideal)) (x8 : (⟨S768, .f32⟩ : BufTy).Contents (Elt Ideal)) (x9 : (⟨S768x1536, .f32⟩ : BufTy).Contents (Elt Ideal)) (x10 : (⟨S768, .f32⟩ : BufTy).Contents (Elt Ideal)) :
    val_main_v68 (F := Ideal) x0 x1 x2 x3 x4 x5 x6 x7 x8 x9 x10 = resultArr x0 x1 x2 x3 x4 x5 x6 x7 x8 x9 x10 :=
  funext fun i =>
    (congrArg (val_main_v68 (F := Ideal) x0 x1 x2 x3 x4 x5 x6 x7 x8 x9 x10) (eq_ix4 i)).trans (ref_result_at x0 x1 x2 x3 x4 x5 x6 x7 x8 x9 x10 (i 0) (i 1) (i 2) (i 3))

end Cert.ReferenceIdeal.RefValue

end
-- ==== Proof.lean ====
/-
  Cross-attention with two gated blends: the kernel — two calls around a stretch of host operations that prepares the
  weights — against its jnp reference, equal entry by entry on the extended reals.

  Both programs compute ONE function of the eleven argument arrays (Proof/Spec.lean). The reference's side is its
  generated run read one operation at a time (Proof/RefScores, RefSoftmax, RefBlends; the row maximum is the fold of
  max along the keys' axis). The kernel's side is its run with the result buffer named (Proof/KernelRun), each call's array recovered from
  the blocks its points write (Proof/Region0Array, Region1Array over the bodies read at an index in Proof/Body0Value,
  Body1Value), and the host stretch's transposes and halves read at an index (Proof/HostWeights). The two sides differ in
  one place: the kernel multiplies the scores by a NAMED constant, the rational 524288 / 14529495, where the reference
  divides by the 32-bit word of 14529495 / 524288 — the same operation on every extended real (Proof/Consts). No step
  uses the finiteness of the inputs: the sums are only re-read, never re-ordered or distributed over.
-/
import proofs.«165018_j42296837931312_1_alg».proof.Defs
import proofs.«165018_j42296837931312_1_alg».proof.Proof.Gen.Kernel
import proofs.«165018_j42296837931312_1_alg».proof.Proof.Gen.Kernel.Skeleton
import proofs.«165018_j42296837931312_1_alg».proof.Proof.Gen.Kernel.Launch
import proofs.«165018_j42296837931312_1_alg».proof.Proof.Gen.Kernel.Points
import proofs.«165018_j42296837931312_1_alg».proof.Proof.Gen.Kernel.Frame
import proofs.«165018_j42296837931312_1_alg».proof.Proof.Gen.KernelIdeal
import proofs.«165018_j42296837931312_1_alg».proof.Proof.Gen.KernelIdeal.Skeleton
import proofs.«165018_j42296837931312_1_alg».proof.Proof.Gen.KernelIdeal.Launch
import proofs.«165018_j42296837931312_1_alg».proof.Proof.Gen.KernelIdeal.Points
import proofs.«165018_j42296837931312_1_alg».proof.Proof.Gen.KernelIdeal.Frame
import proofs.«165018_j42296837931312_1_alg».proof.Proof.Gen.ReferenceIdeal
import proofs.«165018_j42296837931312_1_alg».proof.Proof.Gen.ReferenceIdeal.Run
import proofs.«165018_j42296837931312_1_alg».proof.Proof.Gen.ReferenceIdeal.Read
import proofs.«165018_j42296837931312_1_alg».proof.Proof.Gen.Pre_finite_inputs
import proofs.«165018_j42296837931312_1_alg».proof.Proof.KernelValue
import proofs.«165018_j42296837931312_1_alg».proof.Proof.RefBlends
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ledger's one entry: the certificate's table gives the scale of the scores the value 524288 / 14529495, and the
    printed constant is that value on the extended reals. -/
theorem preserves : Cert.preserves_Kernel_KernelIdeal :=
  IdealRules.named_const.statement Cert.KernelIdeal.κ "inv_sqrt_h" .f32 0x3D13CD3A#32
    ((524288 / 14529495 : ℝ) : EReal) rfl

/-- From memories agreeing on the arguments both programs end with the specification's result array of those
    arguments. -/
theorem algebraic : Cert.algebraic_KernelIdeal_ReferenceIdeal := by
  intro m ρ m' ρ' _ hagree
  refine ⟨_, (θ_run Cert.KernelIdeal.defs _ _).mono
      (fun _ h c => ⟨(h c).1.trans (Cert.KernelIdeal.ArrayValue.result_value m ρ c), (h c).2⟩)
      (Cert.KernelIdeal.RunValue.run_result (F := Ideal) m ρ), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v68_eq, Cert.ReferenceIdeal.RefValue.ref_result,
    (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
